-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x192x1024 : Shape := ⟨3, ![16, 192, 1024]⟩
abbrev S16x64x1024 : Shape := ⟨3, ![16, 64, 1024]⟩
abbrev S16x192 : Shape := ⟨2, ![16, 192]⟩
abbrev S16x64 : Shape := ⟨2, ![16, 64]⟩
abbrev S8192x1024 : Shape := ⟨2, ![8192, 1024]⟩
abbrev S512x1024 : Shape := ⟨2, ![512, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S64x1024 : Shape := ⟨2, ![64, 1024]⟩

abbrev nBuf : Space → Nat
  | .hbm => 35
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16x192x1024, .f32⟩
  | .hbm, ⟨6, _⟩ => ⟨S16x64x1024, .f32⟩
  | .hbm, ⟨7, _⟩ => ⟨S1024x1024, .f32⟩
  | .hbm, ⟨8, _⟩ => ⟨S16x64x1024, .f32⟩
  | .hbm, ⟨9, _⟩ => ⟨S1024x1024, .f32⟩
  | .hbm, ⟨10, _⟩ => ⟨S16x64x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S16x192, .f32⟩
  | .hbm, ⟨19, _⟩ => ⟨S16x64, .f32⟩
  | .hbm, ⟨20, _⟩ => ⟨S1024, .f32⟩
  | .hbm, ⟨21, _⟩ => ⟨S16x64, .f32⟩
  | .hbm, ⟨22, _⟩ => ⟨S1024, .f32⟩
  | .hbm, ⟨23, _⟩ => ⟨S16x64, .f32⟩
  | .hbm, ⟨24, _⟩ => ⟨S1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S4x2048x1024, .bf16⟩
  | .hbm, ⟨30, _⟩ => ⟨S4x2048x1024, .bf16⟩
  | .hbm, ⟨31, _⟩ => ⟨S4x2048x1024, .bf16⟩
  | .hbm, ⟨32, _⟩ => ⟨S1024x1024, .f32⟩
  | .hbm, ⟨33, _⟩ => ⟨S1024x1024, .bf16⟩
  | .hbm, ⟨34, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1024x1024, .bf16⟩
  | .local _ .vmem, ⟨21, _⟩ => ⟨S1024, .f32⟩
  | .local _ .vmem, ⟨22, _⟩ => ⟨S1x256x1024, .f32⟩
  | .local _ .vmem, ⟨23, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S3072x1024_S16x192x1024 : S3072x1024.ShapeCasts S16x192x1024
  slices_S16x192x1024_S16x64x1024_0_0_0 : S16x192x1024.Slices ![0, 0, 0] S16x64x1024
  shapeCasts_S16x64x1024_S1024x1024 : S16x64x1024.ShapeCasts S1024x1024
  slices_S16x192x1024_S16x64x1024_0_64_0 : S16x192x1024.Slices ![0, 64, 0] S16x64x1024
  slices_S16x192x1024_S16x64x1024_0_128_0 : S16x192x1024.Slices ![0, 128, 0] S16x64x1024
  transposes_S1024x1024_S1024x1024_1_0 : S1024x1024.Transposes [1, 0] S1024x1024
  bitsLt_bf16_f32 : FTy.bits .bf16 < FTy.bits .f32
  shapeCasts_S3072_S16x192 : S3072.ShapeCasts S16x192
  slices_S16x192_S16x64_0_0 : S16x192.Slices ![0, 0] S16x64
  shapeCasts_S16x64_S1024 : S16x64.ShapeCasts S1024
  slices_S16x192_S16x64_0_64 : S16x192.Slices ![0, 64] S16x64
  slices_S16x192_S16x64_0_128 : S16x192.Slices ![0, 128] S16x64
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1024x1024_S64x1024_0_0 : ∀ a, (![0, 0] : Fin 2 → Nat) a + S64x1024.size a ≤ S1024x1024.size a
  h_S64x1024 : 0 < S64x1024.numel
  shapeCasts_S64x1024_S64x1024 : S64x1024.ShapeCasts S64x1024
  inb_S1x256x1024_S1x256x64_0_0_64 : ∀ a, (![0, 0, 64] : Fin 3 → Nat) a + S1x256x64.size a ≤ S1x256x1024.size a
  inb_S1x2048x1024_S1x2048x64_0_0_64 : ∀ a, (![0, 0, 64] : Fin 3 → Nat) a + S1x2048x64.size a ≤ S1x2048x1024.size a
  inb_S1024x1024_S64x1024_64_0 : ∀ a, (![64, 0] : Fin 2 → Nat) a + S64x1024.size a ≤ S1024x1024.size a
  inb_S1x256x1024_S1x256x64_0_0_128 : ∀ a, (![0, 0, 128] : Fin 3 → Nat) a + S1x256x64.size a ≤ S1x256x1024.size a
  inb_S1x2048x1024_S1x2048x64_0_0_128 : ∀ a, (![0, 0, 128] : Fin 3 → Nat) a + S1x2048x64.size a ≤ S1x2048x1024.size a
  inb_S1024x1024_S64x1024_128_0 : ∀ a, (![128, 0] : Fin 2 → Nat) a + S64x1024.size a ≤ S1024x1024.size a
  inb_S1x256x1024_S1x256x64_0_0_192 : ∀ a, (![0, 0, 192] : Fin 3 → Nat) a + S1x256x64.size a ≤ S1x256x1024.size a
  inb_S1x2048x1024_S1x2048x64_0_0_192 : ∀ a, (![0, 0, 192] : Fin 3 → Nat) a + S1x2048x64.size a ≤ S1x2048x1024.size a
  inb_S1024x1024_S64x1024_192_0 : ∀ a, (![192, 0] : Fin 2 → Nat) a + S64x1024.size a ≤ S1024x1024.size a
  inb_S1x256x1024_S1x256x64_0_0_256 : ∀ a, (![0, 0, 256] : Fin 3 → Nat) a + S1x256x64.size a ≤ S1x256x1024.size a
  inb_S1x2048x1024_S1x2048x64_0_0_256 : ∀ a, (![0, 0, 256] : Fin 3 → Nat) a + S1x2048x64.size a ≤ S1x2048x1024.size a
  inb_S1024x1024_S64x1024_256_0 : ∀ a, (![256, 0] : Fin 2 → Nat) a + S64x1024.size a ≤ S1024x1024.size a
  inb_S1x256x1024_S1x256x64_0_0_320 : ∀ a, (![0, 0, 320] : Fin 3 → Nat) a + S1x256x64.size a ≤ S1x256x1024.size a
  inb_S1x2048x1024_S1x2048x64_0_0_320 : ∀ a, (![0, 0, 320] : Fin 3 → Nat) a + S1x2048x64.size a ≤ S1x2048x1024.size a
  inb_S1024x1024_S64x1024_320_0 : ∀ a, (![320, 0] : Fin 2 → Nat) a + S64x1024.size a ≤ S1024x1024.size a
  inb_S1x256x1024_S1x256x64_0_0_384 : ∀ a, (![0, 0, 384] : Fin 3 → Nat) a + S1x256x64.size a ≤ S1x256x1024.size a
  inb_S1x2048x1024_S1x2048x64_0_0_384 : ∀ a, (![0, 0, 384] : Fin 3 → Nat) a + S1x2048x64.size a ≤ S1x2048x1024.size a
  inb_S1024x1024_S64x1024_384_0 : ∀ a, (![384, 0] : Fin 2 → Nat) a + S64x1024.size a ≤ S1024x1024.size a
  inb_S1x256x1024_S1x256x64_0_0_448 : ∀ a, (![0, 0, 448] : Fin 3 → Nat) a + S1x256x64.size a ≤ S1x256x1024.size a
  inb_S1x2048x1024_S1x2048x64_0_0_448 : ∀ a, (![0, 0, 448] : Fin 3 → Nat) a + S1x2048x64.size a ≤ S1x2048x1024.size a
  inb_S1024x1024_S64x1024_448_0 : ∀ a, (![448, 0] : Fin 2 → Nat) a + S64x1024.size a ≤ S1024x1024.size a
  inb_S1x256x1024_S1x256x64_0_0_512 : ∀ a, (![0, 0, 512] : Fin 3 → Nat) a + S1x256x64.size a ≤ S1x256x1024.size a
  inb_S1x2048x1024_S1x2048x64_0_0_512 : ∀ a, (![0, 0, 512] : Fin 3 → Nat) a + S1x2048x64.size a ≤ S1x2048x1024.size a
  inb_S1024x1024_S64x1024_512_0 : ∀ a, (![512, 0] : Fin 2 → Nat) a + S64x1024.size a ≤ S1024x1024.size a
  inb_S1x256x1024_S1x256x64_0_0_576 : ∀ a, (![0, 0, 576] : Fin 3 → Nat) a + S1x256x64.size a ≤ S1x256x1024.size a
  inb_S1x2048x1024_S1x2048x64_0_0_576 : ∀ a, (![0, 0, 576] : Fin 3 → Nat) a + S1x2048x64.size a ≤ S1x2048x1024.size a
  inb_S1024x1024_S64x1024_576_0 : ∀ a, (![576, 0] : Fin 2 → Nat) a + S64x1024.size a ≤ S1024x1024.size a
  inb_S1x256x1024_S1x256x64_0_0_640 : ∀ a, (![0, 0, 640] : Fin 3 → Nat) a + S1x256x64.size a ≤ S1x256x1024.size a
  inb_S1x2048x1024_S1x2048x64_0_0_640 : ∀ a, (![0, 0, 640] : Fin 3 → Nat) a + S1x2048x64.size a ≤ S1x2048x1024.size a
  inb_S1024x1024_S64x1024_640_0 : ∀ a, (![640, 0] : Fin 2 → Nat) a + S64x1024.size a ≤ S1024x1024.size a
  inb_S1x256x1024_S1x256x64_0_0_704 : ∀ a, (![0, 0, 704] : Fin 3 → Nat) a + S1x256x64.size a ≤ S1x256x1024.size a
  inb_S1x2048x1024_S1x2048x64_0_0_704 : ∀ a, (![0, 0, 704] : Fin 3 → Nat) a + S1x2048x64.size a ≤ S1x2048x1024.size a
  inb_S1024x1024_S64x1024_704_0 : ∀ a, (![704, 0] : Fin 2 → Nat) a + S64x1024.size a ≤ S1024x1024.size a
  inb_S1x256x1024_S1x256x64_0_0_768 : ∀ a, (![0, 0, 768] : Fin 3 → Nat) a + S1x256x64.size a ≤ S1x256x1024.size a
  inb_S1x2048x1024_S1x2048x64_0_0_768 : ∀ a, (![0, 0, 768] : Fin 3 → Nat) a + S1x2048x64.size a ≤ S1x2048x1024.size a
  inb_S1024x1024_S64x1024_768_0 : ∀ a, (![768, 0] : Fin 2 → Nat) a + S64x1024.size a ≤ S1024x1024.size a
  inb_S1x256x1024_S1x256x64_0_0_832 : ∀ a, (![0, 0, 832] : Fin 3 → Nat) a + S1x256x64.size a ≤ S1x256x1024.size a
  inb_S1x2048x1024_S1x2048x64_0_0_832 : ∀ a, (![0, 0, 832] : Fin 3 → Nat) a + S1x2048x64.size a ≤ S1x2048x1024.size a
  inb_S1024x1024_S64x1024_832_0 : ∀ a, (![832, 0] : Fin 2 → Nat) a + S64x1024.size a ≤ S1024x1024.size a
  inb_S1x256x1024_S1x256x64_0_0_896 : ∀ a, (![0, 0, 896] : Fin 3 → Nat) a + S1x256x64.size a ≤ S1x256x1024.size a
  inb_S1x2048x1024_S1x2048x64_0_0_896 : ∀ a, (![0, 0, 896] : Fin 3 → Nat) a + S1x2048x64.size a ≤ S1x2048x1024.size a
  inb_S1024x1024_S64x1024_896_0 : ∀ a, (![896, 0] : Fin 2 → Nat) a + S64x1024.size a ≤ S1024x1024.size a
  inb_S1x256x1024_S1x256x64_0_0_960 : ∀ a, (![0, 0, 960] : Fin 3 → Nat) a + S1x256x64.size a ≤ S1x256x1024.size a
  inb_S1x2048x1024_S1x2048x64_0_0_960 : ∀ a, (![0, 0, 960] : Fin 3 → Nat) a + S1x2048x64.size a ≤ S1x2048x1024.size a
  inb_S1024x1024_S64x1024_960_0 : ∀ a, (![960, 0] : Fin 2 → Nat) a + S64x1024.size a ≤ S1024x1024.size a
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v20) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v22) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRun.lean ====
/-
  The idealized kernel program's run with its result array named.

  @main is four segments: a stretch of host operations, the projection kernel's region, a second stretch,
  the attention kernel's region.  The generated frame already carries every unscoped buffer through the four
  segments to the contents `W4` after the second region; its last step keeps only the five argument arrays.
  Here the same launch is read once more at the result buffer too: after the run it holds what the second
  region's write-backs leave in its output array, `(dat1 …).arrAt 5 N`, from the contents `V3` the region
  was entered with; the arguments end as launched.
-/
import proofs.«156867_j13572096655417_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output array. -/
theorem W4_result (c : Dev nD) :
    W4 m ρ c (Proc.devRef .tc main_v27) = (dat1 (V3 m ρ) c).arrAt 5 cfg1.N :=
  W4_arr m ρ c 5

set_option backward.isDefEq.respectTransparency.types false in
/-- Every weakly fair execution of @main terminates without a fault; the result buffer ends at the second
    region's output array and the five arguments end as launched. -/
theorem run_named : θ_run defs (onTc (τ := τ) (main (F := F))) ⟨m, fun _ => 0, ρ⟩ (fun r => ∀ c : Dev nD,
      r.2.mem ((c.tc : Thread nD τ).loc main_v27) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KRun

end
-- ==== Proof.Spec.lean ====
/-
  The function both programs compute, written once on the extended reals.

  Multi-head self-attention over x : [4, 2048, 1024] with 16 heads of width 64.  One affine map
  x ↦ x · Wᵀ + bias into 3072 columns produces, for every head h, 192 consecutive columns: 64 of the
  query, 64 of the key, 64 of the value (`colOf`).  Per batch b, head h and query row l the scores
  against all 2048 key rows are the dot products over the 64 head columns times the scale 1/8 (the
  binary32 word 0x3E000000); a row of scores is turned into weights by subtracting the row maximum,
  exponentiating and dividing by the row sum; the weights average the value rows.  The 16 heads'
  results, 64 columns each, are the 1024 columns that the output map  · W_outᵀ + b_out  contracts;
  the contraction is written head by head (`nest16`), the order in which the 16 partial products are added.

  Nothing here assumes finiteness: every sum is the extended reals' own, the row maximum is a fold
  of `max` from the word of -∞, the quotient is the instance's `Ideal.div`.
-/
import Idealize.ShloMosaic.Lib.ValueIdx
import Idealize.ShloMosaic.PureOps.Ideal.Laws

noncomputable section

open scoped BigOperators

namespace Cert.Attn

open Idealize.ShloMosaic Idealize.ShloMosaic.ValueIdx

/-- An array of extended reals over a literal shape. -/
abbrev Arr (s : Shape) : Type := s.Idx → EReal

abbrev Sx : Shape := ⟨3, ![4, 2048, 1024]⟩
abbrev Sw : Shape := ⟨2, ![3072, 1024]⟩
abbrev Sb : Shape := ⟨1, ![3072]⟩
abbrev Swo : Shape := ⟨2, ![1024, 1024]⟩
abbrev Sbo : Shape := ⟨1, ![1024]⟩

/-- The score scale 1/8 as the program writes it: a binary32 word, never evaluated here. -/
abbrev eighth : EReal := Ideal.ofBits .f32 0x3E000000#32
/-- The word of -∞ that both row maxima start from. -/
abbrev negInf : EReal := Ideal.ofBits .f32 0xFF800000#32

/-- A scaled dot product of a query row and a key row over the 64 head columns. -/
def score (q k : Fin 64 → EReal) : EReal := (∑ d : Fin 64, q d * k d) * eighth

/-- The maximum of a row of 2048 scores, folded from -∞. -/
def rowMax (s : Fin 2048 → EReal) : EReal := (Finset.univ : Finset (Fin 2048)).fold max negInf s

/-- A row of scores shifted by its maximum and exponentiated. -/
def expRow (s : Fin 2048 → EReal) (j : Fin 2048) : EReal := Ideal.exp (s j - rowMax s)

/-- The attention weights of a row: the exponentials over their sum. -/
def prob (s : Fin 2048 → EReal) (j : Fin 2048) : EReal := Ideal.div (expRow s j) (∑ j' : Fin 2048, expRow s j')

/-- One query row attends to 2048 key / value rows: column `d` of the weighted average of the value rows. -/
def attend (q : Fin 64 → EReal) (K V : Fin 2048 → Fin 64 → EReal) (d : Fin 64) : EReal :=
  ∑ j : Fin 2048, prob (fun j' => score q (K j')) j * V j d

/-- Entry `(b, l, e)` of x · Wᵀ + bias. -/
def proj (x : Arr Sx) (w : Arr Sw) (bias : Arr Sb) (b : Fin 4) (l : Fin 2048) (e : Fin 3072) : EReal :=
  (∑ k : Fin 1024, x (ix3 b l k) * w (ix2 e k)) + bias (ix1 e)

/-- Column `64·h + d` of the head-major layout. -/
def hd (h : Fin 16) (d : Fin 64) : Fin 1024 := ⟨h.val * 64 + d.val, by omega⟩

/-- Where column `n = 64·h + d` of part `p` (0 query, 1 key, 2 value) sits among the 3072 projected columns:
    `192·h + 64·p + d`. -/
def colOf (p : Fin 3) (n : Fin 1024) : Fin 3072 := ⟨(n.val / 64) * 192 + p.val * 64 + n.val % 64, by omega⟩

/-- The query (p = 0), key (p = 1) or value (p = 2) array in head-major [4, 2048, 1024] layout. -/
def qkvArr (p : Fin 3) (x : Arr Sx) (w : Arr Sw) (bias : Arr Sb) : Arr Sx :=
  fun i => proj x w bias (i 0) (i 1) (colOf p (i 2))

/-- The output weight transposed: entry `(j, o)` is W_out `(o, j)`. -/
def woT (wo : Arr Swo) : Arr Swo := fun i => wo (ix2 (i 1) (i 0))

/-- Head `h`'s contribution to output entry `(b, l, o)`: its 64 attended columns against rows
    `64·h … 64·h + 63` of the transposed output weight. -/
def headTerm (Q K V : Arr Sx) (WT : Arr Swo) (b : Fin 4) (l : Fin 2048) (o : Fin 1024) (h : Fin 16) : EReal :=
  ∑ d : Fin 64,
    attend (fun d' => Q (ix3 b l (hd h d'))) (fun j d' => K (ix3 b j (hd h d'))) (fun j d' => V (ix3 b j (hd h d'))) d
      * WT (ix2 (hd h d) o)

/-- Sixteen terms added to zero one after the other, first to last. -/
def nest16 (T : Fin 16 → EReal) : EReal :=
  0 + T 0 + T 1 + T 2 + T 3 + T 4 + T 5 + T 6 + T 7 + T 8 + T 9 + T 10 + T 11 + T 12 + T 13 + T 14 + T 15

/-- Attention and output map from the three head-major arrays, the transposed output weight and the output bias. -/
def attnOut (Q K V : Arr Sx) (WT : Arr Swo) (bo : Arr Sbo) : Arr Sx :=
  fun i => nest16 (headTerm Q K V WT (i 0) (i 1) (i 2)) + bo (ix1 (i 2))

/-- The whole function of the five arguments. -/
def specOut (x : Arr Sx) (w : Arr Sw) (bias : Arr Sb) (wo : Arr Swo) (bo : Arr Sbo) : Arr Sx :=
  attnOut (qkvArr 0 x w bias) (qkvArr 1 x w bias) (qkvArr 2 x w bias) (woT wo) bo

end Cert.Attn

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.AttnHead.lean ====
/-
  One head of the attention kernel's body as one term, and that term read at an entry on the extended reals.

  For a block of 256 query rows `q`, the 2048 key rows `k` and value rows `v` of one head (64 columns each)
  and the head's 64 rows `w` of the transposed output weight, the body computes
      scores = (q · kᵀ) · 1/8,   e = exp (scores − rowmax scores),   p = e / rowsum e,   (p · v) · w.
  `expScores`, `headOut` spell exactly these vector operations.  Read at the ideal instance, entry (r, o) of
  `headOut q k v w` is  ∑ d, attend (q r ·) (k · ·) (v · ·) d · w (d, o)  with `Cert.Attn.attend` the
  specification's row attention: the two reductions over the key axis are the fold of `max` and the sum
  over `Fin 2048`, the three products are sums over their one contracted axis, the changes of float format
  are the identity.
-/
import proofs.«156867_j13572096655417_2_alg».proof.Proof.Gen.KernelIdeal.Skeleton
import proofs.«156867_j13572096655417_2_alg».proof.Proof.Spec
import proofs.«156867_j13572096655417_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.AttnHead

open Cert.KernelIdeal Cert.KernelIdeal.Gen
open Idealize.ShloMosaic Idealize.ShloMosaic.ValueIdx

section Terms
variable {F : FTy → Type} [FloatOps F]

/-- The exponentials of the scaled scores shifted by their row maxima. -/
def expScores (q : FVec F S256x64 .bf16) (k : FVec F S2048x64 .bf16) : FVec F S256x2048 .f32 :=
  have s0 : FVec F S256x2048 .f32 := matmul dot_S256x64_S2048x64_S256x2048_1_1_0_0_n_n none q k (constant S256x2048 .f32 0x00000000#32)
  have s : FVec F S256x2048 .f32 := mulf s0 (broadcast S256x2048 (Scalar.ofBits .f32 0x3E000000#32))
  have mx : FVec F S256 .f32 := multiReduction .maximumf [1] S256 s 0xFF800000#32 reduces_S256x2048_S256 (.inl rfl) rfl
  exp (subf s (broadcastTo S256x2048 (shapeCast S256x1 mx shapeCasts_S256_S256x1) broadcasts_S256x1_S256x2048))

/-- The rest of a head from the exponentials: normalise the rows, average the value rows, apply the head's rows of
    the output weight. -/
def headFromExp (e : FVec F S256x2048 .f32) (v : FVec F S2048x64 .bf16) (w : FVec F S64x1024 .bf16) : FVec F S256x1024 .f32 :=
  have sm : FVec F S256 .f32 := multiReduction .add [1] S256 e 0x00000000#32 reduces_S256x2048_S256 (.inl rfl) rfl
  have p : FVec F S256x2048 .f32 := divf e (broadcastTo S256x2048 (shapeCast S256x1 sm shapeCasts_S256_S256x1) broadcasts_S256x1_S256x2048)
  have a : FVec F S256x64 .f32 := matmul dot_S256x2048_S2048x64_S256x64_1_0_0_1_n_n none (truncf .bf16 p bitsLt_bf16_f32) v (constant S256x64 .f32 0x00000000#32)
  matmul dot_S256x64_S64x1024_S256x1024_1_0_0_1_n_n none (truncf .bf16 a bitsLt_bf16_f32) w (constant S256x1024 .f32 0x00000000#32)

/-- One head. -/
def headOut (q : FVec F S256x64 .bf16) (k v : FVec F S2048x64 .bf16) (w : FVec F S64x1024 .bf16) : FVec F S256x1024 .f32 :=
  headFromExp (expScores q k) v w

end Terms

/-! ## Read at an entry, on the extended reals -/

/-- A vector made a column by a change of shape: the column holds `v r` at `(r, 0)`. -/
theorem col_cast_apply {α : Type} {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- A column repeated across `b` columns holds `c (r, 0)` at `(r, j)`. -/
theorem col_bcast_apply {α : Type} {a b : ℕ} (c : (⟨2, ![a, 1]⟩ : Shape).Idx → α) (h : (⟨2, ![a, 1]⟩ : Shape).Broadcasts ⟨2, ![a, b]⟩)
    (ha : a ≠ 1) (r : Fin a) (j : Fin b) : broadcastTo ⟨2, ![a, b]⟩ c h (ix2 r j) = c (ix2 r (0 : Fin 1)) := by
  refine broadcastTo_apply c h (ix2 r j) (ix2 r (0 : Fin 1)) fun ax => ?_
  match ax with
  | ⟨0, _⟩ =>
    show r.val = if a = 1 then 0 else r.val
    rw [if_neg ha]
  | ⟨1, _⟩ => rfl

/-- The query–key product contracts the second axis of both operands: at `(r, j)` it is `∑ d, q (r, d) · k (j, d)`. -/
theorem qk_apply (q : FVec Ideal S256x64 .bf16) (k : FVec Ideal S2048x64 .bf16) (r : Fin 256) (j : Fin 2048) :
    matmul dot_S256x64_S2048x64_S256x2048_1_1_0_0_n_n none q k (constant (F := Ideal) S256x2048 .f32 0x00000000#32) (ix2 r j)
      = ∑ d : Fin 64, q (ix2 r d) * k (ix2 j d) := by
  refine (Ideal.matmul_constant_zero_apply _ none q k (ix2 r j)).trans ?_
  rw [← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 r j) ((contrEquiv1 dot_S256x64_S2048x64_S256x2048_1_1_0_0_n_n 64 rfl rfl).symm d) = ix2 r d :=
    funext fun a => Fin.ext (by
      match a with
      | ⟨0, _⟩ => rfl
      | ⟨1, _⟩ => exact (dot_S256x64_S2048x64_S256x2048_1_1_0_0_n_n.lhsIdx_val_of_single rfl _ _).trans hd)
  have er : dot_S256x64_S2048x64_S256x2048_1_1_0_0_n_n.rhsIdx (ix2 r j) ((contrEquiv1 dot_S256x64_S2048x64_S256x2048_1_1_0_0_n_n 64 rfl rfl).symm d) = ix2 j d :=
    funext fun a => Fin.ext (by
      match a with
      | ⟨0, _⟩ => rfl
      | ⟨1, _⟩ => exact (dot_S256x64_S2048x64_S256x2048_1_1_0_0_n_n.rhsIdx_val_of_single rfl _ _).trans hd)
  rw [el, er]

end Cert.AttnHead

end
-- ==== Proof.AttnHeadVal.lean ====
/-
  One head of the attention body read at an entry, on the extended reals.

  Entry (r, o) of `headOut q k v w` is  ∑ d, attend (q r ·) (k · ·) (v · ·) d · w (d, o): the row of scaled scores
  of query row r is `scoreRow q k r`; its maximum over the 2048 keys is the fold of `max` from -∞ that the
  specification's `rowMax` is, kept as a column and repeated across the row; the exponentials' row sum is the
  sum over `Fin 2048`; the weights times the value rows and that product times the head's output-weight rows
  are plain matrix products, each a sum over its contracted axis.
-/
import proofs.«156867_j13572096655417_2_alg».proof.Proof.AttnHead

set_option maxRecDepth 16384

noncomputable section

open scoped BigOperators

namespace Cert.AttnHead

open Cert.KernelIdeal Cert.KernelIdeal.Gen Cert.Attn
open Idealize.ShloMosaic Idealize.ShloMosaic.ValueIdx

/-- The scaled scores of query row `r` against the 2048 key rows. -/
def scoreRow (q : FVec Ideal S256x64 .bf16) (k : FVec Ideal S2048x64 .bf16) (r : Fin 256) : Fin 2048 → EReal :=
  fun j => score (fun d => q (ix2 r d)) (fun d => k (ix2 j d))

/-- Inserting key position `j` into the reduced index `r` gives `(r, j)`. -/
theorem lift_row (r : Fin 256) (j : Fin 2048) : reduces_S256x2048_S256.lift (ix1 r) j = ix2 r j :=
  funext fun a => Fin.ext (by
    match a with
    | ⟨0, _⟩ => rfl
    | ⟨1, _⟩ => rfl)

/-- A per-row value kept as a column and repeated across the 2048 key positions reads the row's value. -/
theorem keep_apply {α : Type} (mx : S256.Idx → α) (r : Fin 256) (j : Fin 2048) :
    broadcastTo S256x2048 (shapeCast S256x1 mx shapeCasts_S256_S256x1) broadcasts_S256x1_S256x2048 (ix2 r j) = mx (ix1 r) :=
  (col_bcast_apply _ broadcasts_S256x1_S256x2048 (by decide) r j).trans (col_cast_apply mx shapeCasts_S256_S256x1 r 0)

/-- The row maximum from the word of -∞: the fold of `max` over the key positions. -/
theorem rowmax_apply (s : FVec Ideal S256x2048 .f32) (r : Fin 256) :
    multiReduction .maximumf [1] S256 s 0xFF800000#32 reduces_S256x2048_S256 (.inl rfl) rfl (ix1 r)
      = (Finset.univ : Finset (Fin 2048)).fold max negInf (fun j => s (ix2 r j)) := by
  refine (Ideal.multiReduction_maximumf_single s 0xFF800000#32 reduces_S256x2048_S256 (.inl rfl) rfl (ix1 r)).trans ?_
  have e : (s ∘ reduces_S256x2048_S256.lift (ix1 r)) = fun j : Fin 2048 => s (ix2 r j) :=
    funext fun j => congrArg s (lift_row r j)
  show Finset.fold max _ (s ∘ reduces_S256x2048_S256.lift (ix1 r)) _ = _
  rw [e]
  rfl

/-- The row sum: the sum over the key positions. -/
theorem rowsum_apply (e : FVec Ideal S256x2048 .f32) (r : Fin 256) :
    multiReduction .add [1] S256 e 0x00000000#32 reduces_S256x2048_S256 (.inl rfl) rfl (ix1 r)
      = ∑ j : Fin 2048, e (ix2 r j) := by
  refine (Ideal.multiReduction_add_single e 0x00000000#32 reduces_S256x2048_S256 (.inl rfl) rfl (ix1 r)).trans ?_
  exact Finset.sum_congr rfl fun j _ => congrArg e (lift_row r j)

/-- The exponentials at `(r, j)`: the specification's shifted, exponentiated row of scores. -/
theorem expScores_apply (q : FVec Ideal S256x64 .bf16) (k : FVec Ideal S2048x64 .bf16) (r : Fin 256) (j : Fin 2048) :
    expScores (F := Ideal) q k (ix2 r j) = expRow (scoreRow q k r) j := by
  have hs : ∀ j' : Fin 2048,
      (mulf (matmul dot_S256x64_S2048x64_S256x2048_1_1_0_0_n_n none q k (constant (F := Ideal) S256x2048 .f32 0x00000000#32))
        (broadcast S256x2048 (Scalar.ofBits (F := Ideal) .f32 0x3E000000#32)) : FVec Ideal S256x2048 .f32) (ix2 r j') = scoreRow q k r j' :=
    fun j' => congrArg (· * eighth) (qk_apply q k r j')
  unfold expScores
  refine congrArg Ideal.exp (congrArg₂ (fun a b : EReal => a - b) (hs j) ?_)
  refine (keep_apply _ r j).trans ((rowmax_apply _ r).trans ?_)
  exact congrArg (fun f : Fin 2048 → EReal => Finset.fold max negInf f Finset.univ) (funext hs)

/-- Entry `(r, o)` of one head. -/
theorem headOut_apply (q : FVec Ideal S256x64 .bf16) (k v : FVec Ideal S2048x64 .bf16) (w : FVec Ideal S64x1024 .bf16)
    (r : Fin 256) (o : Fin 1024) :
    headOut (F := Ideal) q k v w (ix2 r o)
      = ∑ d : Fin 64, attend (fun d' => q (ix2 r d')) (fun j d' => k (ix2 j d')) (fun j d' => v (ix2 j d')) d * w (ix2 d o) := by
  unfold headOut headFromExp
  refine (PlainDot.matmul_zero_apply 256 64 1024 none _ w r o).trans ?_
  refine Finset.sum_congr rfl fun d _ => congrArg (· * w (ix2 d o)) ?_
  refine (PlainDot.matmul_zero_apply 256 2048 64 none _ v r d).trans ?_
  refine Finset.sum_congr rfl fun j _ => congrArg (· * v (ix2 j d)) ?_
  show Ideal.div (expScores (F := Ideal) q k (ix2 r j)) _ = Ideal.div (expRow _ j) (∑ j' : Fin 2048, expRow _ j')
  refine congrArg₂ Ideal.div (expScores_apply q k r j) ?_
  refine (keep_apply _ r j).trans ((rowsum_apply _ r).trans ?_)
  exact Finset.sum_congr rfl fun j' _ => expScores_apply q k r j'

end Cert.AttnHead

end
-- ==== Proof.AttnBody.lean ====
/-
  The attention kernel's body as one term over its five input blocks.

  The body loads, for each of the 16 heads, the head's 64 columns of the query block and of the key and value
  blocks and the head's 64 rows of the transposed output weight, computes the head (`Cert.AttnHead.headOut`)
  and adds it to an accumulator that starts at zero; after the last head it adds the output bias, repeated over
  the 256 rows, and stores the [256, 1024] result as the [1, 256, 1024] output block.  The generated skeleton
  spells the same sequence of vector operations in thirty consecutive pieces; unfolding them gives this term,
  so the output block the generated frame names is this term stored through the whole-block rectangle.
-/
import proofs.«156867_j13572096655417_2_alg».proof.Proof.Gen.KernelIdeal.Frame
import proofs.«156867_j13572096655417_2_alg».proof.Proof.AttnHead

set_option maxRecDepth 16384

noncomputable section

open scoped BigOperators

namespace Cert.AttnBody

open Cert.KernelIdeal Cert.KernelIdeal.Gen Cert.AttnHead
open Idealize.ShloMosaic

variable {F : FTy → Type} [FloatOps F]

/-- The sixteen heads added to zero one after the other. -/
def heads (x0 : Vec F S1x256x1024 .bf16) (x1 x2 : Vec F S1x2048x1024 .bf16) (x3 : Vec F S1024x1024 .bf16) : FVec F S256x1024 .f32 :=
  (addf (addf (addf (addf (addf (addf (addf (addf (addf (addf (addf (addf (addf (addf (addf (addf (broadcast S256x1024 (Scalar.ofBits .f32 0x00000000#32))
      (headOut (shapeCast S256x64 (View.ld x0 r1_0) shapeCasts_S1x256x64_S256x64) (shapeCast S2048x64 (View.ld x1 r1_1) shapeCasts_S1x2048x64_S2048x64) (shapeCast S2048x64 (View.ld x2 r1_1) shapeCasts_S1x2048x64_S2048x64) (shapeCast S64x1024 (View.ld x3 r1_2) shapeCasts_S64x1024_S64x1024)))
      (headOut (shapeCast S256x64 (View.ld x0 r1_3) shapeCasts_S1x256x64_S256x64) (shapeCast S2048x64 (View.ld x1 r1_4) shapeCasts_S1x2048x64_S2048x64) (shapeCast S2048x64 (View.ld x2 r1_4) shapeCasts_S1x2048x64_S2048x64) (shapeCast S64x1024 (View.ld x3 r1_5) shapeCasts_S64x1024_S64x1024)))
      (headOut (shapeCast S256x64 (View.ld x0 r1_6) shapeCasts_S1x256x64_S256x64) (shapeCast S2048x64 (View.ld x1 r1_7) shapeCasts_S1x2048x64_S2048x64) (shapeCast S2048x64 (View.ld x2 r1_7) shapeCasts_S1x2048x64_S2048x64) (shapeCast S64x1024 (View.ld x3 r1_8) shapeCasts_S64x1024_S64x1024)))
      (headOut (shapeCast S256x64 (View.ld x0 r1_9) shapeCasts_S1x256x64_S256x64) (shapeCast S2048x64 (View.ld x1 r1_10) shapeCasts_S1x2048x64_S2048x64) (shapeCast S2048x64 (View.ld x2 r1_10) shapeCasts_S1x2048x64_S2048x64) (shapeCast S64x1024 (View.ld x3 r1_11) shapeCasts_S64x1024_S64x1024)))
      (headOut (shapeCast S256x64 (View.ld x0 r1_12) shapeCasts_S1x256x64_S256x64) (shapeCast S2048x64 (View.ld x1 r1_13) shapeCasts_S1x2048x64_S2048x64) (shapeCast S2048x64 (View.ld x2 r1_13) shapeCasts_S1x2048x64_S2048x64) (shapeCast S64x1024 (View.ld x3 r1_14) shapeCasts_S64x1024_S64x1024)))
      (headOut (shapeCast S256x64 (View.ld x0 r1_15) shapeCasts_S1x256x64_S256x64) (shapeCast S2048x64 (View.ld x1 r1_16) shapeCasts_S1x2048x64_S2048x64) (shapeCast S2048x64 (View.ld x2 r1_16) shapeCasts_S1x2048x64_S2048x64) (shapeCast S64x1024 (View.ld x3 r1_17) shapeCasts_S64x1024_S64x1024)))
      (headOut (shapeCast S256x64 (View.ld x0 r1_18) shapeCasts_S1x256x64_S256x64) (shapeCast S2048x64 (View.ld x1 r1_19) shapeCasts_S1x2048x64_S2048x64) (shapeCast S2048x64 (View.ld x2 r1_19) shapeCasts_S1x2048x64_S2048x64) (shapeCast S64x1024 (View.ld x3 r1_20) shapeCasts_S64x1024_S64x1024)))
      (headOut (shapeCast S256x64 (View.ld x0 r1_21) shapeCasts_S1x256x64_S256x64) (shapeCast S2048x64 (View.ld x1 r1_22) shapeCasts_S1x2048x64_S2048x64) (shapeCast S2048x64 (View.ld x2 r1_22) shapeCasts_S1x2048x64_S2048x64) (shapeCast S64x1024 (View.ld x3 r1_23) shapeCasts_S64x1024_S64x1024)))
      (headOut (shapeCast S256x64 (View.ld x0 r1_24) shapeCasts_S1x256x64_S256x64) (shapeCast S2048x64 (View.ld x1 r1_25) shapeCasts_S1x2048x64_S2048x64) (shapeCast S2048x64 (View.ld x2 r1_25) shapeCasts_S1x2048x64_S2048x64) (shapeCast S64x1024 (View.ld x3 r1_26) shapeCasts_S64x1024_S64x1024)))
      (headOut (shapeCast S256x64 (View.ld x0 r1_27) shapeCasts_S1x256x64_S256x64) (shapeCast S2048x64 (View.ld x1 r1_28) shapeCasts_S1x2048x64_S2048x64) (shapeCast S2048x64 (View.ld x2 r1_28) shapeCasts_S1x2048x64_S2048x64) (shapeCast S64x1024 (View.ld x3 r1_29) shapeCasts_S64x1024_S64x1024)))
      (headOut (shapeCast S256x64 (View.ld x0 r1_30) shapeCasts_S1x256x64_S256x64) (shapeCast S2048x64 (View.ld x1 r1_31) shapeCasts_S1x2048x64_S2048x64) (shapeCast S2048x64 (View.ld x2 r1_31) shapeCasts_S1x2048x64_S2048x64) (shapeCast S64x1024 (View.ld x3 r1_32) shapeCasts_S64x1024_S64x1024)))
      (headOut (shapeCast S256x64 (View.ld x0 r1_33) shapeCasts_S1x256x64_S256x64) (shapeCast S2048x64 (View.ld x1 r1_34) shapeCasts_S1x2048x64_S2048x64) (shapeCast S2048x64 (View.ld x2 r1_34) shapeCasts_S1x2048x64_S2048x64) (shapeCast S64x1024 (View.ld x3 r1_35) shapeCasts_S64x1024_S64x1024)))
      (headOut (shapeCast S256x64 (View.ld x0 r1_36) shapeCasts_S1x256x64_S256x64) (shapeCast S2048x64 (View.ld x1 r1_37) shapeCasts_S1x2048x64_S2048x64) (shapeCast S2048x64 (View.ld x2 r1_37) shapeCasts_S1x2048x64_S2048x64) (shapeCast S64x1024 (View.ld x3 r1_38) shapeCasts_S64x1024_S64x1024)))
      (headOut (shapeCast S256x64 (View.ld x0 r1_39) shapeCasts_S1x256x64_S256x64) (shapeCast S2048x64 (View.ld x1 r1_40) shapeCasts_S1x2048x64_S2048x64) (shapeCast S2048x64 (View.ld x2 r1_40) shapeCasts_S1x2048x64_S2048x64) (shapeCast S64x1024 (View.ld x3 r1_41) shapeCasts_S64x1024_S64x1024)))
      (headOut (shapeCast S256x64 (View.ld x0 r1_42) shapeCasts_S1x256x64_S256x64) (shapeCast S2048x64 (View.ld x1 r1_43) shapeCasts_S1x2048x64_S2048x64) (shapeCast S2048x64 (View.ld x2 r1_43) shapeCasts_S1x2048x64_S2048x64) (shapeCast S64x1024 (View.ld x3 r1_44) shapeCasts_S64x1024_S64x1024)))
      (headOut (shapeCast S256x64 (View.ld x0 r1_45) shapeCasts_S1x256x64_S256x64) (shapeCast S2048x64 (View.ld x1 r1_46) shapeCasts_S1x2048x64_S2048x64) (shapeCast S2048x64 (View.ld x2 r1_46) shapeCasts_S1x2048x64_S2048x64) (shapeCast S64x1024 (View.ld x3 r1_47) shapeCasts_S64x1024_S64x1024)))

/-- The stored value: the heads plus the bias row, as a [1, 256, 1024] block. -/
def body (x0 : Vec F S1x256x1024 .bf16) (x1 x2 : Vec F S1x2048x1024 .bf16) (x3 : Vec F S1024x1024 .bf16) (x4 : Vec F S1024 .f32) : FVec F S1x256x1024 .f32 :=
  shapeCast S1x256x1024
    (addf (heads x0 x1 x2 x3)
      (broadcastTo S256x1024 (shapeCast S1x1024 (View.ld x4 r1_48) shapeCasts_S1024_S1x1024) broadcasts_S1x1024_S256x1024))
    shapeCasts_S256x1024_S1x256x1024

/-- What the body leaves in the output window's buffer is `body` stored through the whole-block rectangle. -/
theorem out_eq (x0 : Vec F S1x256x1024 .bf16) (x1 x2 : Vec F S1x2048x1024 .bf16) (x3 : Vec F S1024x1024 .bf16) (x4 : Vec F S1024 .f32) :
    out1_5 x0 x1 x2 x3 x4 = View.canon [⟨r1_49, body x0 x1 x2 x3 x4⟩] := rfl

end Cert.AttnBody

end
-- ==== Proof.LibReadAt.lean ====
/-
  Two readings that recur whenever a kernel's stores and loads are opened at an index, for any shapes.

  A load of a buffer through a unit-stride rectangle, read at a position, is the buffer at the rectangle's offsets plus
  the position, coordinate by coordinate (`ld_unit_apply`; `readAt_unread` puts a load of a whole memref held at
  named contents in that form). A reshape that splits the last axis of a matrix in two, or adds a leading unit axis,
  keeps row-major order: entry `(a, b, c)` of the split is entry `(a, b·C + c)` of the matrix, and entry
  `(0, a, b, c)` of the unit-axis form is entry `(a, b, c)` (`split_last_apply`, `lead_unit4_apply`); the chunk of a
  [1, A, N] vector seen as [A, N] likewise (`drop_unit3_apply`).
-/
import Idealize.ShloMosaic.Lib.Pipeline.FrameBody
import Idealize.ShloMosaic.Lib.Pipeline.Frame
import Idealize.ShloMosaic.Lib.Pipeline.Value
import Idealize.ShloMosaic.Lib.ValueIdx

noncomputable section

namespace Cert.LibReadAt

open Idealize.ShloMosaic

variable {α : Type}

/-- A load through a unit-stride rectangle, at a position: the contents at offset plus position. -/
theorem ld_unit_apply {s : Shape} {Val : EltTy → Type} {e : EltTy} (X : s.Idx → Val e) (off : Fin s.rank → ℕ)
    (size : Fin s.rank → ℕ) (inb : ∀ a, off a + size a ≤ s.size a)
    (k : (Rect.unit (s := s) off size inb).shape.Idx) (j : s.Idx) (hj : ∀ a, (j a).val = off a + (k a).val) :
    View.ld X (Rect.unit (s := s) off size inb) k = X j := by
  show X ((Rect.unit (s := s) off size inb).emb k) = X j
  refine congrArg X (funext fun a => Fin.ext ?_)
  rw [Rect.emb_apply, hj a]
  simp only [Rect.off_unit, Rect.stride_unit, Nat.one_mul]

/-- A [A, B·C] matrix reshaped to [A, B, C], read at `(a, b, c)`. -/
theorem split_last_apply {A B C N : ℕ} (x : (⟨2, ![A, N]⟩ : Shape).Idx → α)
    (h : (⟨2, ![A, N]⟩ : Shape).ShapeCasts ⟨3, ![A, B, C]⟩) (a : Fin A) (b : Fin B) (c : Fin C) (n : Fin N)
    (hN : N = B * C) (hn : n.val = b.val * C + c.val) :
    shapeCast ⟨3, ![A, B, C]⟩ x h (ValueIdx.ix3 a b c) = x (ValueIdx.ix2 a n) := by
  refine shapeCast_apply x h _ _ ?_
  rw [Shape.rowMajor_val_two, Shape.rowMajor_val_three]
  show a.val * N + n.val = (a.val * B + b.val) * C + c.val
  rw [hn, hN]
  ring

/-- A [A, B, C] array given a leading unit axis, read at `(0, a, b, c)`. -/
theorem lead_unit4_apply {A B C : ℕ} (x : (⟨3, ![A, B, C]⟩ : Shape).Idx → α)
    (h : (⟨3, ![A, B, C]⟩ : Shape).ShapeCasts ⟨4, ![1, A, B, C]⟩) (a : Fin A) (b : Fin B) (c : Fin C) :
    shapeCast ⟨4, ![1, A, B, C]⟩ x h (ValueIdx.ix4 (0 : Fin 1) a b c) = x (ValueIdx.ix3 a b c) := by
  refine shapeCast_apply x h _ _ ?_
  rw [Shape.rowMajor_val_three, Shape.rowMajor_val_four]
  show (a.val * B + b.val) * C + c.val = (((0 : ℕ) * A + a.val) * B + b.val) * C + c.val
  rw [Nat.zero_mul, Nat.zero_add]

/-- A [1, A, N] array with its leading unit axis dropped, read at `(a, n)`. -/
theorem drop_unit3_apply {A N : ℕ} (x : (⟨3, ![1, A, N]⟩ : Shape).Idx → α)
    (h : (⟨3, ![1, A, N]⟩ : Shape).ShapeCasts ⟨2, ![A, N]⟩) (a : Fin A) (n : Fin N) :
    shapeCast ⟨2, ![A, N]⟩ x h (ValueIdx.ix2 a n) = x (ValueIdx.ix3 (0 : Fin 1) a n) := by
  refine shapeCast_apply x h _ _ ?_
  rw [Shape.rowMajor_val_three, Shape.rowMajor_val_two]
  show ((0 : ℕ) * A + a.val) * N + n.val = a.val * N + n.val
  rw [Nat.zero_mul, Nat.zero_add]

end Cert.LibReadAt

end
-- ==== Proof.AttnBlock.lean ====
/-
  The attention body's stored block read at an entry, on the extended reals.

  With the five input blocks `x0` (256 query rows), `x1`, `x2` (2048 key and value rows), `x3` (the
  transposed output weight) and `x4` (the output bias), entry (0, r, o) of the stored block is
      nest16 (h ↦ ∑ d, attend (x0 (0, r, 64h + ·)) (x1 (0, ·, 64h + ·)) (x2 (0, ·, 64h + ·)) d · x3 (64h + d, o)) + x4 o :
  head h reads columns 64h … 64h + 63 of the three activation blocks and rows 64h … 64h + 63 of the weight block
  through unit-stride rectangles, a leading unit axis is dropped or added without moving an entry, and the bias row
  is repeated down the 256 rows.
-/
import proofs.«156867_j13572096655417_2_alg».proof.Proof.AttnHeadVal
import proofs.«156867_j13572096655417_2_alg».proof.Proof.AttnBody
import proofs.«156867_j13572096655417_2_alg».proof.Proof.LibReadAt

set_option maxRecDepth 16384

noncomputable section

open scoped BigOperators

namespace Cert.AttnBody

open Cert.KernelIdeal Cert.KernelIdeal.Gen Cert.AttnHead Cert.Attn
open Idealize.ShloMosaic Idealize.ShloMosaic.ValueIdx

/-- A sum of two vectors at an index, from what the two are there. -/
theorem addf_at {s : Shape} {φ : FTy} (a b : FVec Ideal s φ) (i : s.Idx) (x y : EReal) (ha : a i = x) (hb : b i = y) :
    addf a b i = x + y := by
  rw [← ha, ← hb]; rfl

/-- Columns `off … off + 63` of a [1, R, 1024] block seen as an [R, 64] matrix: entry `(r, d)` is the block's
    `(0, r, off + d)`. -/
theorem cols_cut_apply {Val : EltTy → Type} {e : EltTy} {R : ℕ} (x : (⟨3, ![1, R, 1024]⟩ : Shape).Idx → Val e) (off : ℕ)
    (inb : ∀ a, (![0, 0, off] : Fin 3 → ℕ) a + (![1, R, 64] : Fin 3 → ℕ) a ≤ (⟨3, ![1, R, 1024]⟩ : Shape).size a)
    (hc : (⟨3, ![1, R, 64]⟩ : Shape).ShapeCasts ⟨2, ![R, 64]⟩)
    (r : Fin R) (d : Fin 64) (n : Fin 1024) (hn : n.val = off + d.val) :
    shapeCast ⟨2, ![R, 64]⟩ (View.ld x (Rect.unit (s := ⟨3, ![1, R, 1024]⟩) ![0, 0, off] ![1, R, 64] inb)) hc (ix2 r d)
      = x (ix3 (0 : Fin 1) r n) := by
  refine (shapeCast_1ab_ab_apply _ hc r d).trans ?_
  refine Cert.LibReadAt.ld_unit_apply x _ _ inb (ix3 (0 : Fin 1) r d) (ix3 (0 : Fin 1) r n) fun a => ?_
  match a with
  | ⟨0, _⟩ => rfl
  | ⟨1, _⟩ => exact (Nat.zero_add _).symm
  | ⟨2, _⟩ => exact hn

/-- Rows `off … off + 63` of the [1024, 1024] weight block: entry `(d, o)` is the block's `(off + d, o)`. -/
theorem rows_cut_apply {Val : EltTy → Type} {e : EltTy} (x : S1024x1024.Idx → Val e) (off : ℕ)
    (inb : ∀ a, (![off, 0] : Fin 2 → ℕ) a + S64x1024.size a ≤ S1024x1024.size a)
    (d : Fin 64) (o : Fin 1024) (n : Fin 1024) (hn : n.val = off + d.val) :
    shapeCast S64x1024 (View.ld x (Rect.unit (s := S1024x1024) ![off, 0] S64x1024.size inb)) shapeCasts_S64x1024_S64x1024 (ix2 d o)
      = x (ix2 n o) := by
  refine (shapeCast_apply _ shapeCasts_S64x1024_S64x1024 (ix2 d o) (ix2 d o) rfl).trans ?_
  refine Cert.LibReadAt.ld_unit_apply x _ _ inb (ix2 d o) (ix2 n o) fun a => ?_
  match a with
  | ⟨0, _⟩ => exact hn
  | ⟨1, _⟩ => exact (Nat.zero_add _).symm

/-- Row attention depends only on its three arguments. -/
theorem attend_congr {q q' : Fin 64 → EReal} {K K' W W' : Fin 2048 → Fin 64 → EReal} (hq : q = q') (hK : K = K') (hW : W = W')
    (d : Fin 64) : attend q K W d = attend q' K' W' d := by
  subst hq hK hW; rfl

/-- Head `h`, cut out of the blocks at column / row offset `64·h`, at entry `(r, o)`. -/
theorem head_cut_apply (x0 : Vec Ideal S1x256x1024 .bf16) (x1 x2 : Vec Ideal S1x2048x1024 .bf16) (x3 : Vec Ideal S1024x1024 .bf16)
    (off : ℕ)
    (inbq : ∀ a, (![0, 0, off] : Fin 3 → ℕ) a + S1x256x64.size a ≤ S1x256x1024.size a)
    (inbk : ∀ a, (![0, 0, off] : Fin 3 → ℕ) a + S1x2048x64.size a ≤ S1x2048x1024.size a)
    (inbw : ∀ a, (![off, 0] : Fin 2 → ℕ) a + S64x1024.size a ≤ S1024x1024.size a)
    (h : Fin 16) (hoff : off = h.val * 64) (r : Fin 256) (o : Fin 1024) :
    headOut (F := Ideal)
        (shapeCast S256x64 (View.ld x0 (Rect.unit (s := S1x256x1024) ![0, 0, off] S1x256x64.size inbq)) shapeCasts_S1x256x64_S256x64)
        (shapeCast S2048x64 (View.ld x1 (Rect.unit (s := S1x2048x1024) ![0, 0, off] S1x2048x64.size inbk)) shapeCasts_S1x2048x64_S2048x64)
        (shapeCast S2048x64 (View.ld x2 (Rect.unit (s := S1x2048x1024) ![0, 0, off] S1x2048x64.size inbk)) shapeCasts_S1x2048x64_S2048x64)
        (shapeCast S64x1024 (View.ld x3 (Rect.unit (s := S1024x1024) ![off, 0] S64x1024.size inbw)) shapeCasts_S64x1024_S64x1024)
        (ix2 r o)
      = ∑ d : Fin 64, attend (fun d' => x0 (ix3 (0 : Fin 1) r (hd h d'))) (fun j d' => x1 (ix3 (0 : Fin 1) j (hd h d')))
          (fun j d' => x2 (ix3 (0 : Fin 1) j (hd h d'))) d * x3 (ix2 (hd h d) o) := by
  have hh : ∀ d : Fin 64, (hd h d).val = off + d.val := fun d => by rw [hoff]; rfl
  refine (headOut_apply
    (shapeCast S256x64 (View.ld x0 (Rect.unit (s := S1x256x1024) ![0, 0, off] S1x256x64.size inbq)) shapeCasts_S1x256x64_S256x64)
    (shapeCast S2048x64 (View.ld x1 (Rect.unit (s := S1x2048x1024) ![0, 0, off] S1x2048x64.size inbk)) shapeCasts_S1x2048x64_S2048x64)
    (shapeCast S2048x64 (View.ld x2 (Rect.unit (s := S1x2048x1024) ![0, 0, off] S1x2048x64.size inbk)) shapeCasts_S1x2048x64_S2048x64)
    (shapeCast S64x1024 (View.ld x3 (Rect.unit (s := S1024x1024) ![off, 0] S64x1024.size inbw)) shapeCasts_S64x1024_S64x1024) r o).trans ?_
  refine Finset.sum_congr rfl fun d _ => ?_
  refine congrArg₂ (fun a b : EReal => a * b) ?_ (rows_cut_apply x3 off inbw d o (hd h d) (hh d))
  refine attend_congr ?_ ?_ ?_ d
  · exact funext fun d' => cols_cut_apply x0 off inbq shapeCasts_S1x256x64_S256x64 r d' (hd h d') (hh d')
  · exact funext fun j => funext fun d' => cols_cut_apply x1 off inbk shapeCasts_S1x2048x64_S2048x64 j d' (hd h d') (hh d')
  · exact funext fun j => funext fun d' => cols_cut_apply x2 off inbk shapeCasts_S1x2048x64_S2048x64 j d' (hd h d') (hh d')

/-- The sixteen heads at entry `(r, o)`. -/
theorem heads_apply (x0 : Vec Ideal S1x256x1024 .bf16) (x1 x2 : Vec Ideal S1x2048x1024 .bf16) (x3 : Vec Ideal S1024x1024 .bf16)
    (r : Fin 256) (o : Fin 1024) :
    heads (F := Ideal) x0 x1 x2 x3 (ix2 r o)
      = nest16 fun h => ∑ d : Fin 64, attend (fun d' => x0 (ix3 (0 : Fin 1) r (hd h d'))) (fun j d' => x1 (ix3 (0 : Fin 1) j (hd h d')))
          (fun j d' => x2 (ix3 (0 : Fin 1) j (hd h d'))) d * x3 (ix2 (hd h d) o) := by
  unfold heads nest16
  exact (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ (Ideal.ofBits_zero_f32)
      (head_cut_apply x0 x1 x2 x3 0 _ _ _ 0 rfl r o))
      (head_cut_apply x0 x1 x2 x3 64 _ _ _ 1 rfl r o))
      (head_cut_apply x0 x1 x2 x3 128 _ _ _ 2 rfl r o))
      (head_cut_apply x0 x1 x2 x3 192 _ _ _ 3 rfl r o))
      (head_cut_apply x0 x1 x2 x3 256 _ _ _ 4 rfl r o))
      (head_cut_apply x0 x1 x2 x3 320 _ _ _ 5 rfl r o))
      (head_cut_apply x0 x1 x2 x3 384 _ _ _ 6 rfl r o))
      (head_cut_apply x0 x1 x2 x3 448 _ _ _ 7 rfl r o))
      (head_cut_apply x0 x1 x2 x3 512 _ _ _ 8 rfl r o))
      (head_cut_apply x0 x1 x2 x3 576 _ _ _ 9 rfl r o))
      (head_cut_apply x0 x1 x2 x3 640 _ _ _ 10 rfl r o))
      (head_cut_apply x0 x1 x2 x3 704 _ _ _ 11 rfl r o))
      (head_cut_apply x0 x1 x2 x3 768 _ _ _ 12 rfl r o))
      (head_cut_apply x0 x1 x2 x3 832 _ _ _ 13 rfl r o))
      (head_cut_apply x0 x1 x2 x3 896 _ _ _ 14 rfl r o))
      (head_cut_apply x0 x1 x2 x3 960 _ _ _ 15 rfl r o))

/-- The bias row repeated down the rows, at `(r, o)`. -/
theorem bias_apply (x4 : Vec Ideal S1024 .f32) (r : Fin 256) (o : Fin 1024) :
    broadcastTo S256x1024 (shapeCast S1x1024 (View.ld x4 r1_48) shapeCasts_S1024_S1x1024) broadcasts_S1x1024_S256x1024 (ix2 r o)
      = x4 (ix1 o) := by
  refine (broadcastTo_1b_ab_apply _ broadcasts_S1x1024_S256x1024 r o).trans ?_
  refine (shapeCast_a_1a_apply _ shapeCasts_S1024_S1x1024 (0 : Fin 1) o).trans ?_
  refine Cert.LibReadAt.ld_unit_apply x4 _ _ _ (ix1 o) (ix1 o) fun a => ?_
  match a with
  | ⟨0, _⟩ => exact (Nat.zero_add _).symm

/-- The stored block at entry `(u, r, o)`. -/
theorem body_apply (x0 : Vec Ideal S1x256x1024 .bf16) (x1 x2 : Vec Ideal S1x2048x1024 .bf16) (x3 : Vec Ideal S1024x1024 .bf16)
    (x4 : Vec Ideal S1024 .f32) (u : Fin 1) (r : Fin 256) (o : Fin 1024) :
    body (F := Ideal) x0 x1 x2 x3 x4 (ix3 u r o)
      = nest16 (fun h => ∑ d : Fin 64, attend (fun d' => x0 (ix3 (0 : Fin 1) r (hd h d'))) (fun j d' => x1 (ix3 (0 : Fin 1) j (hd h d')))
          (fun j d' => x2 (ix3 (0 : Fin 1) j (hd h d'))) d * x3 (ix2 (hd h d) o)) + x4 (ix1 o) := by
  unfold body
  refine (shapeCast_ab_1ab_apply _ shapeCasts_S256x1024_S1x256x1024 u r o).trans ?_
  exact addf_at _ _ _ _ _ (heads_apply x0 x1 x2 x3 r o) (bias_apply x4 r o)

end Cert.AttnBody

end
-- ==== Proof.AttnRegion.lean ====
/-
  The attention region's output array, whole, as one function of the five arrays the region is entered with.

  The grid has 4 × 8 points (b, qi).  Point (b, qi) stages rows 256·qi … 256·qi + 255 of batch b of the query
  array, all 2048 rows of batch b of the key and value arrays, the whole transposed output weight and the whole
  output bias, and writes back rows 256·qi … 256·qi + 255 of batch b of the output.  So what the point writes
  back is the same rows of `Cert.Attn.attnOut` of the five arrays (an entry of the output depends on its own
  query row, on all key / value rows of its batch, and on the weights), and the 32 blocks tile the output array:
  row l of batch b lies in the block of point (b, l / 256).
-/
import proofs.«156867_j13572096655417_2_alg».proof.Proof.Gen.KernelIdeal.Frame
import proofs.«156867_j13572096655417_2_alg».proof.Proof.AttnBlock

set_option maxRecDepth 16384

noncomputable section

open scoped BigOperators

namespace Cert.AttnRegion

open Cert.KernelIdeal Cert.KernelIdeal.Gen Cert.Attn
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The stored block's entry is the specification's entry, once every staged index is where the output entry says:
    pure rewriting, over abstract embeddings of the five blocks. -/
theorem entry_eq (Q K Vv : Arr Sx) (WT : Arr Swo) (bo : Arr Sbo)
    (e0 : S1x256x1024.Idx → Sx.Idx) (e1 e2 : S1x2048x1024.Idx → Sx.Idx) (e3 : S1024x1024.Idx → Swo.Idx) (e4 : S1024.Idx → Sbo.Idx)
    (b : Fin 4) (l : Fin 2048) (o' : Fin 1024) (r : Fin 256) (o : Fin 1024)
    (h0 : ∀ n : Fin 1024, e0 (ix3 (0 : Fin 1) r n) = ix3 b l n)
    (h1 : ∀ (j : Fin 2048) (n : Fin 1024), e1 (ix3 (0 : Fin 1) j n) = ix3 b j n)
    (h2 : ∀ (j : Fin 2048) (n : Fin 1024), e2 (ix3 (0 : Fin 1) j n) = ix3 b j n)
    (h3 : ∀ n : Fin 1024, e3 (ix2 n o) = ix2 n o') (h4 : e4 (ix1 o) = ix1 o') :
    nest16 (fun h => ∑ d : Fin 64, attend (fun d' => Q (e0 (ix3 (0 : Fin 1) r (hd h d')))) (fun j d' => K (e1 (ix3 (0 : Fin 1) j (hd h d'))))
        (fun j d' => Vv (e2 (ix3 (0 : Fin 1) j (hd h d')))) d * WT (e3 (ix2 (hd h d) o))) + bo (e4 (ix1 o))
      = attnOut Q K Vv WT bo (ix3 b l o') := by
  show _ = nest16 (headTerm Q K Vv WT b l o') + bo (ix1 o')
  unfold headTerm
  simp only [h0, h1, h2, h3, h4]

/-- The printed index maps, decided over the 32 grid points: the query and output windows move together over
    (batch, row block); the key and value windows follow the batch only; the weight and bias windows stay. -/
theorem idx_facts : ∀ t : Fin cfg1.N,
    win1_5.index t (0 : Fin 3) < 4 ∧ win1_5.index t (1 : Fin 3) < 8 ∧ win1_5.index t (2 : Fin 3) = 0
    ∧ win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0 :=
  (by decide +kernel : ∀ t : Fin grid1.N, _)

/-- Every (batch, row block) is some point's. -/
theorem idx_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- What point `t` writes back: its block of `attnOut` of the five arrays as the region finds them. -/
theorem flushed_eq (c : Dev nD) (t : Fin cfg1.N) :
    (dat1 V c).flushed 5 t = ((cfg1.win 5).blk t).view.read (Elt Ideal)
      (attnOut (V c main_v22) (V c main_v23) (V c main_v24) (V c main_v26) (V c main_arg4)) := by
  show (cfg1.win 5).cut (grid1.coords t) ((dat1 V c).after 5 t) = _
  rw [after1_5, Cert.AttnBody.out_eq]
  rw [View.canon_unit_zero hz3]
  obtain ⟨f0, f1, f2, f3, f4, f5, f6, f7, f8, f9, f10, f11, f12, f13, f14⟩ := idx_facts t
  funext y
  obtain ⟨u, r, o, rfl⟩ : ∃ (u : Fin 1) (r : Fin 256) (o : Fin 1024), y = ix3 u r o := ⟨y 0, y 1, y 2, eq_ix3 y⟩
  have hu : u.val = 0 := by omega
  refine (Cert.AttnBody.body_apply (iblk1 V c 0 t) (iblk1 V c 1 t) (iblk1 V c 2 t) (iblk1 V c 3 t) (iblk1 V c 4 t) u r o).trans ?_
  have hi : ((cfg1.win 5).blk t).view.emb (ix3 u r o)
      = ix3 (⟨win1_5.index t (0 : Fin 3), f0⟩ : Fin 4) (⟨win1_5.index t (1 : Fin 3) * 256 + r.val, by omega⟩ : Fin 2048) o := by
    funext a; apply Fin.ext
    match a with
    | ⟨0, _⟩ => show win1_5.index t (0 : Fin 3) * 1 + 1 * u.val = win1_5.index t (0 : Fin 3); omega
    | ⟨1, _⟩ => show win1_5.index t (1 : Fin 3) * 256 + 1 * r.val = win1_5.index t (1 : Fin 3) * 256 + r.val; omega
    | ⟨2, _⟩ => show win1_5.index t (2 : Fin 3) * 1024 + 1 * o.val = o.val; omega
  show _ = attnOut _ _ _ _ _ (((cfg1.win 5).blk t).view.emb (ix3 u r o))
  rw [hi]
  refine entry_eq (V c main_v22) (V c main_v23) (V c main_v24) (V c main_v26) (V c main_arg4)
    ((cfg1.win 0).blk t).view.emb ((cfg1.win 1).blk t).view.emb ((cfg1.win 2).blk t).view.emb ((cfg1.win 3).blk t).view.emb
    ((cfg1.win 4).blk t).view.emb _ _ o r o ?_ ?_ ?_ ?_ ?_
  · intro n; funext a; apply Fin.ext
    match a with
    | ⟨0, _⟩ => show win1_0.index t (0 : Fin 3) * 1 + 1 * 0 = win1_5.index t (0 : Fin 3); omega
    | ⟨1, _⟩ => show win1_0.index t (1 : Fin 3) * 256 + 1 * r.val = win1_5.index t (1 : Fin 3) * 256 + r.val; omega
    | ⟨2, _⟩ => show win1_0.index t (2 : Fin 3) * 1024 + 1 * n.val = n.val; omega
  · intro j n; funext a; apply Fin.ext
    match a with
    | ⟨0, _⟩ => show win1_1.index t (0 : Fin 3) * 1 + 1 * 0 = win1_5.index t (0 : Fin 3); omega
    | ⟨1, _⟩ => show win1_1.index t (1 : Fin 3) * 2048 + 1 * j.val = j.val; omega
    | ⟨2, _⟩ => show win1_1.index t (2 : Fin 3) * 1024 + 1 * n.val = n.val; omega
  · intro j n; funext a; apply Fin.ext
    match a with
    | ⟨0, _⟩ => show win1_2.index t (0 : Fin 3) * 1 + 1 * 0 = win1_5.index t (0 : Fin 3); omega
    | ⟨1, _⟩ => show win1_2.index t (1 : Fin 3) * 2048 + 1 * j.val = j.val; omega
    | ⟨2, _⟩ => show win1_2.index t (2 : Fin 3) * 1024 + 1 * n.val = n.val; omega
  · intro n; funext a; apply Fin.ext
    match a with
    | ⟨0, _⟩ => show win1_3.index t (0 : Fin 2) * 1024 + 1 * n.val = n.val; omega
    | ⟨1, _⟩ => show win1_3.index t (1 : Fin 2) * 1024 + 1 * o.val = o.val; omega
  · funext a; apply Fin.ext
    match a with
    | ⟨0, _⟩ => show win1_4.index t (0 : Fin 1) * 1024 + 1 * o.val = o.val; omega

/-- An index of the output array is in point `t`'s block iff each coordinate is in the block's range on its axis. -/
theorem mem_blk (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v27).slice (win1_5.rect t)).set ↔ _
  rw [View.set_slice_whole, Rect.mem_set_unit]
  exact Iff.rfl

/-- The 32 blocks cover the output array. -/
theorem cover (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- The output array after the region: `attnOut` of the five arrays the region was entered with. -/
theorem final (c : Dev nD) :
    (dat1 V c).arrAt 5 cfg1.N = attnOut (V c main_v22) (V c main_v23) (V c main_v24) (V c main_v26) (V c main_arg4) :=
  (dat1 V c).arrAt_eq_of_cover 5 _ (fun t _ => flushed_eq V c t) cover

end Cert.AttnRegion

end
-- ==== Proof.StageHost0.lean ====
/-
  What the first kernel region finds in its seven input arrays, as functions of the program's arguments.

  The packed weight W : [3072, 1024] is seen as [16, 192, 1024] (head, 192 columns per head, input column); rows
  p … p + 63 of every head (p = 0 for the query, 64 for the key, 128 for the value) are cut out, flattened back to
  [1024, 1024] and transposed. So entry (k, n) of the result is W at row 192·(n / 64) + p + n % 64 and column k.
  The bias [3072] is cut the same way: entry n is the bias at 192·(n / 64) + p + n % 64. The input x : [4, 2048, 1024]
  is flattened to [8192, 1024]: row 2048·b + l is row (b, l). A change of float format is the identity here.
-/
import proofs.«156867_j13572096655417_2_alg».proof.Proof.Gen.KernelIdeal.Frame
import proofs.«156867_j13572096655417_2_alg».proof.Proof.Spec
import Idealize.ShloMosaic.Lib.Pipeline.Value
import Idealize.ShloMosaic.Lib.StableHlo.Run
import Idealize.ShloMosaic.Lib.ValueIdx

set_option maxRecDepth 16384

noncomputable section

namespace Cert.Stage

open Cert.KernelIdeal Cert.KernelIdeal.Gen
open Idealize.ShloMosaic Idealize.ShloMosaic.TcCoe Idealize.ShloMosaic.ValueIdx

/-- Rows `off 1 … off 1 + 63` of every head of the packed weight, flattened and transposed. -/
def wT (off : Fin 3 → Nat) (hs : S16x192x1024.Slices off S16x64x1024) (w : S3072x1024.Idx → EReal) : S1024x1024.Idx → EReal :=
  truncf (F := Ideal) (φ := .f32) .bf16 (transpose S1024x1024 [1, 0] (shapeCast S1024x1024 (extractStridedSlice S16x64x1024 off (shapeCast S16x192x1024 w shapeCasts_S3072x1024_S16x192x1024) hs) shapeCasts_S16x64x1024_S1024x1024) transposes_S1024x1024_S1024x1024_1_0) bitsLt_bf16_f32

/-- Entry `(k, n)` of it is the packed weight at row `192·(n / 64) + p + n % 64`, column `k`. -/
theorem wT_apply (p : Nat) (hp : p ≤ 128) (off : Fin 3 → Nat) (hoff : off = ![0, p, 0]) (hs : S16x192x1024.Slices off S16x64x1024)
    (w : S3072x1024.Idx → EReal) (k n : Fin 1024) (e : Fin 3072) (he : e.val = (n.val / 64) * 192 + p + n.val % 64) :
    wT off hs w (ix2 k n) = w (ix2 e k) := by
  subst hoff
  unfold wT
  have hn := n.isLt
  refine (truncf_apply (ψ := .bf16) _ bitsLt_bf16_f32 (ix2 k n)).trans ?_
  refine (transpose_apply [1, 0] _ transposes_S1024x1024_S1024x1024_1_0 (ix2 k n) (ix2 n k) (fun b => ?_)).trans ?_
  · match b with
    | ⟨0, _⟩ => rfl
    | ⟨1, _⟩ => rfl
  refine (shapeCast_apply _ shapeCasts_S16x64x1024_S1024x1024 (ix2 n k)
    (ix3 (⟨n.val / 64, by omega⟩ : Fin 16) (⟨n.val % 64, by omega⟩ : Fin 64) k) ?_).trans ?_
  · rw [Shape.rowMajor_val_three, Shape.rowMajor_val_two]
    show (n.val / 64 * 64 + n.val % 64) * 1024 + k.val = n.val * 1024 + k.val
    omega
  refine (extractStridedSlice_apply _ _ hs _
    (ix3 (⟨n.val / 64, by omega⟩ : Fin 16) (⟨p + n.val % 64, by omega⟩ : Fin 192) k) (fun a => ?_)).trans ?_
  · match a with
    | ⟨0, _⟩ => show n.val / 64 = 0 + n.val / 64; omega
    | ⟨1, _⟩ => show p + n.val % 64 = p + n.val % 64; rfl
    | ⟨2, _⟩ => show k.val = 0 + k.val; omega
  refine shapeCast_apply _ shapeCasts_S3072x1024_S16x192x1024 _ (ix2 e k) ?_
  rw [Shape.rowMajor_val_three, Shape.rowMajor_val_two]
  show e.val * 1024 + k.val = (n.val / 64 * 192 + (p + n.val % 64)) * 1024 + k.val
  rw [he]; omega

/-- Entries `off 1 … off 1 + 63` of every head of the packed bias, flattened. -/
def bS (off : Fin 2 → Nat) (hs : S16x192.Slices off S16x64) (b : S3072.Idx → EReal) : S1024.Idx → EReal :=
  shapeCast S1024 (extractStridedSlice S16x64 off (shapeCast S16x192 b shapeCasts_S3072_S16x192) hs) shapeCasts_S16x64_S1024

/-- Entry `n` of it is the packed bias at `192·(n / 64) + p + n % 64`. -/
theorem bS_apply (p : Nat) (hp : p ≤ 128) (off : Fin 2 → Nat) (hoff : off = ![0, p]) (hs : S16x192.Slices off S16x64)
    (b : S3072.Idx → EReal) (n : Fin 1024) (e : Fin 3072) (he : e.val = (n.val / 64) * 192 + p + n.val % 64) :
    bS off hs b (ix1 n) = b (ix1 e) := by
  subst hoff
  unfold bS
  have hn := n.isLt
  refine (shapeCast_apply _ shapeCasts_S16x64_S1024 (ix1 n)
    (ix2 (⟨n.val / 64, by omega⟩ : Fin 16) (⟨n.val % 64, by omega⟩ : Fin 64)) ?_).trans ?_
  · rw [Shape.rowMajor_val_two, Shape.rowMajor_val_one]
    show n.val / 64 * 64 + n.val % 64 = n.val
    omega
  refine (extractStridedSlice_apply _ _ hs _
    (ix2 (⟨n.val / 64, by omega⟩ : Fin 16) (⟨p + n.val % 64, by omega⟩ : Fin 192)) (fun a => ?_)).trans ?_
  · match a with
    | ⟨0, _⟩ => show n.val / 64 = 0 + n.val / 64; omega
    | ⟨1, _⟩ => show p + n.val % 64 = p + n.val % 64; rfl
  refine shapeCast_apply _ shapeCasts_S3072_S16x192 _ (ix1 e) ?_
  rw [Shape.rowMajor_val_two, Shape.rowMajor_val_one]
  show e.val = n.val / 64 * 192 + (p + n.val % 64)
  rw [he]; omega

/-- The input with its two leading axes flattened. -/
def xFlat (x : S4x2048x1024.Idx → EReal) : S8192x1024.Idx → EReal :=
  shapeCast S8192x1024 x shapeCasts_S4x2048x1024_S8192x1024

/-- Row `2048·b + l` of it is row `(b, l)` of the input. -/
theorem xFlat_apply (x : S4x2048x1024.Idx → EReal) (r : Fin 8192) (k : Fin 1024) (b : Fin 4) (l : Fin 2048)
    (hr : r.val = 2048 * b.val + l.val) : xFlat x (ix2 r k) = x (ix3 b l k) := by
  unfold xFlat
  refine shapeCast_apply _ shapeCasts_S4x2048x1024_S8192x1024 _ (ix3 b l k) ?_
  rw [Shape.rowMajor_val_three, Shape.rowMajor_val_two]
  show (b.val * 2048 + l.val) * 1024 + k.val = r.val * 1024 + k.val
  rw [hr]; omega

variable (m : (ℓ : Loc nD τ sig) → Buf (Elt Ideal) ℓ) (ρ : Dev nD → PrngReg)

/-! The seven arrays at the first region's entry, each the operations' term of one argument. -/

theorem v1_v8 (c : Dev nD) : (V1 (F := Ideal) m ρ c main_v8 : S1024x1024.Idx → EReal)
    = wT ![0, 0, 0] slices_S16x192x1024_S16x64x1024_0_0_0 (m ((c : Thread nD τ).loc main_arg1)) := by
  dsimp only [V1, W1, hostOps0]
  after_results
  rfl

theorem v1_v10 (c : Dev nD) : (V1 (F := Ideal) m ρ c main_v10 : S1024x1024.Idx → EReal)
    = wT ![0, 64, 0] slices_S16x192x1024_S16x64x1024_0_64_0 (m ((c : Thread nD τ).loc main_arg1)) := by
  dsimp only [V1, W1, hostOps0]
  after_results
  rfl

theorem v1_v12 (c : Dev nD) : (V1 (F := Ideal) m ρ c main_v12 : S1024x1024.Idx → EReal)
    = wT ![0, 128, 0] slices_S16x192x1024_S16x64x1024_0_128_0 (m ((c : Thread nD τ).loc main_arg1)) := by
  dsimp only [V1, W1, hostOps0]
  after_results
  rfl

theorem v1_v15 (c : Dev nD) : (V1 (F := Ideal) m ρ c main_v15 : S1024.Idx → EReal)
    = bS ![0, 0] slices_S16x192_S16x64_0_0 (m ((c : Thread nD τ).loc main_arg2)) := by
  dsimp only [V1, W1, hostOps0]
  after_results
  rfl

theorem v1_v17 (c : Dev nD) : (V1 (F := Ideal) m ρ c main_v17 : S1024.Idx → EReal)
    = bS ![0, 64] slices_S16x192_S16x64_0_64 (m ((c : Thread nD τ).loc main_arg2)) := by
  dsimp only [V1, W1, hostOps0]
  after_results
  rfl

theorem v1_v19 (c : Dev nD) : (V1 (F := Ideal) m ρ c main_v19 : S1024.Idx → EReal)
    = bS ![0, 128] slices_S16x192_S16x64_0_128 (m ((c : Thread nD τ).loc main_arg2)) := by
  dsimp only [V1, W1, hostOps0]
  after_results
  rfl

theorem v1_v20 (c : Dev nD) : (V1 (F := Ideal) m ρ c main_v20 : S8192x1024.Idx → EReal)
    = xFlat (m ((c : Thread nD τ).loc main_arg0)) := by
  dsimp only [V1, W1, hostOps0]
  after_results
  rfl

end Cert.Stage

end
-- ==== Proof.StagePay0.lean ====
/-
  The arithmetic of the first kernel region's body at one entry of its result block, on the extended reals.

  The body takes a block of 512 input rows, a [1024, 1024] matrix and a bias row, multiplies the block by the matrix
  into a zero accumulator and adds the bias to every row. Changes of float format and casts to the same shape are
  the identity. So entry (p, q) of each of the three result blocks is  ∑ k, x (p, k) · w (k, q) + bias q.
-/
import proofs.«156867_j13572096655417_2_alg».proof.Proof.Gen.KernelIdeal.Skeleton
import proofs.«156867_j13572096655417_2_alg».proof.Proof.LibPlainDot
import Idealize.ShloMosaic.Lib.ValueLayout
import Idealize.ShloMosaic.Lib.Pipeline.Value
import Idealize.ShloMosaic.Lib.ValueIdx

set_option maxRecDepth 16384

noncomputable section

open scoped BigOperators

namespace Cert.Stage

open Cert.KernelIdeal Cert.KernelIdeal.Gen
open Idealize.ShloMosaic Idealize.ShloMosaic.ValueIdx

/-- The body's input block in the matrix unit's format is the block itself. -/
theorem pay1_eq (x : Vec Ideal S512x1024 .f32) : k0_pay1 (F := Ideal) x = x := by
  unfold k0_pay1
  funext i
  refine (truncf_apply (ψ := .bf16) _ bitsLt_bf16_f32 i).trans ?_
  exact congrFun (shapeCast_self x shapeCasts_S512x1024_S512x1024) i

/-- The product of a 512-row block and a [1024, 1024] matrix into the zero accumulator, at entry `(p, q)`. -/
theorem blockProd_apply (x : FVec Ideal S512x1024 .bf16) (w : FVec Ideal S1024x1024 .bf16) (p : Fin 512) (q : Fin 1024) :
    matmul dot_S512x1024_S1024x1024_S512x1024_1_0_0_1_n_n none x
        (shapeCast S1024x1024 w shapeCasts_S1024x1024_S1024x1024) (constant (F := Ideal) S512x1024 .f32 0x00000000#32) (ix2 p q)
      = ∑ k : Fin 1024, x (ix2 p k) * w (ix2 k q) := by
  rw [shapeCast_self]
  exact Idealize.ShloMosaic.PlainDot.matmul_zero_apply 512 1024 1024 none x w p q

/-- The bias row laid over the 512 rows of a block, at entry `(p, q)`. -/
theorem biasRows_apply (b : Vec Ideal S1024 .f32) (p : Fin 512) (q : Fin 1024) :
    broadcastTo S512x1024 (shapeCast S1x1024 (shapeCast S1024 b shapeCasts_S1024_S1024) shapeCasts_S1024_S1x1024)
        broadcasts_S1x1024_S512x1024 (ix2 p q) = b (ix1 q) := by
  rw [shapeCast_self]
  refine (broadcastTo_1b_ab_apply _ broadcasts_S1x1024_S512x1024 p q).trans ?_
  exact shapeCast_a_1a_apply b shapeCasts_S1024_S1x1024 (0 : Fin 1) q

/-- The query block at entry `(p, q)`. -/
theorem pay2_apply (x : Vec Ideal S512x1024 .f32) (w : Vec Ideal S1024x1024 .bf16) (b : Vec Ideal S1024 .f32)
    (p : Fin 512) (q : Fin 1024) :
    k0_pay2 (F := Ideal) x w b (ix2 p q) = (∑ k : Fin 1024, x (ix2 p k) * w (ix2 k q)) + b (ix1 q) := by
  unfold k0_pay2
  refine (truncf_apply (ψ := .bf16) _ bitsLt_bf16_f32 (ix2 p q)).trans ?_
  refine (addf_apply _ _ (ix2 p q)).trans ?_
  refine congrArg₂ (· + ·) ((blockProd_apply (k0_pay1 x) w p q).trans ?_) (biasRows_apply b p q)
  rw [pay1_eq]

/-- The key block at entry `(p, q)`. -/
theorem pay3_apply (x : Vec Ideal S512x1024 .f32) (w : Vec Ideal S1024x1024 .bf16) (b : Vec Ideal S1024 .f32)
    (p : Fin 512) (q : Fin 1024) :
    k0_pay3 (F := Ideal) x w b (ix2 p q) = (∑ k : Fin 1024, x (ix2 p k) * w (ix2 k q)) + b (ix1 q) := by
  unfold k0_pay3
  refine (truncf_apply (ψ := .bf16) _ bitsLt_bf16_f32 (ix2 p q)).trans ?_
  refine (addf_apply _ _ (ix2 p q)).trans ?_
  refine congrArg₂ (· + ·) ((blockProd_apply (k0_pay1 x) w p q).trans ?_) (biasRows_apply b p q)
  rw [pay1_eq]

/-- The value block at entry `(p, q)`. -/
theorem pay4_apply (x : Vec Ideal S512x1024 .f32) (w : Vec Ideal S1024x1024 .bf16) (b : Vec Ideal S1024 .f32)
    (p : Fin 512) (q : Fin 1024) :
    k0_pay4 (F := Ideal) x w b (ix2 p q) = (∑ k : Fin 1024, x (ix2 p k) * w (ix2 k q)) + b (ix1 q) := by
  unfold k0_pay4
  refine (truncf_apply (ψ := .bf16) _ bitsLt_bf16_f32 (ix2 p q)).trans ?_
  refine (addf_apply _ _ (ix2 p q)).trans ?_
  refine congrArg₂ (· + ·) ((blockProd_apply (k0_pay1 x) w p q).trans ?_) (biasRows_apply b p q)
  rw [pay1_eq]

end Cert.Stage

end
-- ==== Proof.StageRegion0.lean ====
/-
  The three arrays the first kernel region leaves: the query, key and value projections over all 8192 rows.

  The region runs over 16 blocks of 512 rows. At block t the body reads rows 512·t … 512·t + 511 of the flattened
  input and the whole of one [1024, 1024] matrix and one bias row, and writes the same rows of each result. Entry
  (p, q) of a block is a function of row 512·t + p of the input alone, so every block is the restriction of ONE
  array: row r, column n is  ∑ k, X (r, k) · W (k, n) + bias n. The 16 blocks cover all rows (row r lies in block
  r / 512), so the array after the region is that function.
-/
import proofs.«156867_j13572096655417_2_alg».proof.Proof.Gen.KernelIdeal.Frame
import proofs.«156867_j13572096655417_2_alg».proof.Proof.StagePay0
import Idealize.ShloMosaic.Lib.Pipeline.Value
import Idealize.ShloMosaic.Lib.ValueIdx

set_option maxRecDepth 16384

noncomputable section

open scoped BigOperators

namespace Cert.Stage

open Cert.KernelIdeal Cert.KernelIdeal.Gen
open Idealize.ShloMosaic Idealize.ShloMosaic.TcCoe Idealize.ShloMosaic.ValueIdx
open Idealize.ShloMosaic.Pipeline (Dat)

/-- Rows times a matrix plus a bias row: entry `(r, n)` is `∑ k, X (r, k) · W (k, n) + B n`. -/
def affine (X : S8192x1024.Idx → EReal) (W : S1024x1024.Idx → EReal) (B : S1024.Idx → EReal) : S8192x1024.Idx → EReal :=
  fun i => (∑ k : Fin 1024, X (ix2 (i 0) k) * W (ix2 k (i 1))) + B (ix1 (i 1))

theorem affine_apply (X : S8192x1024.Idx → EReal) (W : S1024x1024.Idx → EReal) (B : S1024.Idx → EReal) (r : Fin 8192) (n : Fin 1024) :
    affine X W B (ix2 r n) = (∑ k : Fin 1024, X (ix2 r k) * W (ix2 k n)) + B (ix1 n) := rfl

theorem hz2 : (![0, 0] : Fin 2 → Nat) = fun _ => 0 := funext fun a => by fin_cases a <;> rfl
theorem hz1 : (![0] : Fin 1 → Nat) = fun _ => 0 := funext fun a => by fin_cases a <;> rfl

/-- The block index maps over the 16 points: the input rows and the three results move with the point, the matrices
    and bias rows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- The input window's block at point `t` is rows `512·t …` of the flattened input. -/
theorem iblk_x (c : Dev nD) (t : Fin cfg0.N) (p : Fin 512) (k : Fin 1024) (r : Fin 8192) (hr : r.val = t.val * 512 + p.val) :
    (iblk0 V c 0 t : S512x1024.Idx → EReal) (ix2 p k) = (V c main_v20 : S8192x1024.Idx → EReal) (ix2 r k) := by
  obtain ⟨e0, e1, -⟩ := idx_facts t
  unfold iblk0
  rw [View.read_apply]
  show (V c main_v20 : S8192x1024.Idx → EReal) _ = (V c main_v20 : S8192x1024.Idx → EReal) _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Window 1's block at any point is the whole query matrix. -/
theorem iblk_w1 (c : Dev nD) (t : Fin cfg0.N) :
    (iblk0 V c 1 t : S1024x1024.Idx → EReal) = (V c main_v8 : S1024x1024.Idx → EReal) := by
  obtain ⟨-, -, e0, e1, -, -, -, -, -, -, -, -, -, -, -, -, -⟩ := idx_facts t
  funext y
  unfold iblk0
  rw [View.read_apply]
  show (V c main_v8 : S1024x1024.Idx → EReal) _ = (V c main_v8 : S1024x1024.Idx → EReal) _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- Window 4's block at any point is the whole query bias row. -/
theorem iblk_b4 (c : Dev nD) (t : Fin cfg0.N) :
    (iblk0 V c 4 t : S1024.Idx → EReal) = (V c main_v15 : S1024.Idx → EReal) := by
  obtain ⟨-, -, -, -, -, -, -, -, e0, -, -, -, -, -, -, -, -⟩ := idx_facts t
  funext y
  unfold iblk0
  rw [View.read_apply]
  show (V c main_v15 : S1024.Idx → EReal) _ = (V c main_v15 : S1024.Idx → EReal) _
  congr 1
  funext a
  apply Fin.ext
  match a with
  | ⟨0, _⟩ => show win0_4.index t (0 : Fin 1) * 1024 + 1 * (y 0).val = (y 0).val; rw [e0]; omega

/-- Window 2's block at any point is the whole key matrix. -/
theorem iblk_w2 (c : Dev nD) (t : Fin cfg0.N) :
    (iblk0 V c 2 t : S1024x1024.Idx → EReal) = (V c main_v10 : S1024x1024.Idx → EReal) := by
  obtain ⟨-, -, -, -, e0, e1, -, -, -, -, -, -, -, -, -, -, -⟩ := idx_facts t
  funext y
  unfold iblk0
  rw [View.read_apply]
  show (V c main_v10 : S1024x1024.Idx → EReal) _ = (V c main_v10 : S1024x1024.Idx → EReal) _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- Window 5's block at any point is the whole key bias row. -/
theorem iblk_b5 (c : Dev nD) (t : Fin cfg0.N) :
    (iblk0 V c 5 t : S1024.Idx → EReal) = (V c main_v17 : S1024.Idx → EReal) := by
  obtain ⟨-, -, -, -, -, -, -, -, -, e0, -, -, -, -, -, -, -⟩ := idx_facts t
  funext y
  unfold iblk0
  rw [View.read_apply]
  show (V c main_v17 : S1024.Idx → EReal) _ = (V c main_v17 : S1024.Idx → EReal) _
  congr 1
  funext a
  apply Fin.ext
  match a with
  | ⟨0, _⟩ => show win0_5.index t (0 : Fin 1) * 1024 + 1 * (y 0).val = (y 0).val; rw [e0]; omega

/-- Window 3's block at any point is the whole value matrix. -/
theorem iblk_w3 (c : Dev nD) (t : Fin cfg0.N) :
    (iblk0 V c 3 t : S1024x1024.Idx → EReal) = (V c main_v12 : S1024x1024.Idx → EReal) := by
  obtain ⟨-, -, -, -, -, -, e0, e1, -, -, -, -, -, -, -, -, -⟩ := idx_facts t
  funext y
  unfold iblk0
  rw [View.read_apply]
  show (V c main_v12 : S1024x1024.Idx → EReal) _ = (V c main_v12 : S1024x1024.Idx → EReal) _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Window 6's block at any point is the whole value bias row. -/
theorem iblk_b6 (c : Dev nD) (t : Fin cfg0.N) :
    (iblk0 V c 6 t : S1024.Idx → EReal) = (V c main_v19 : S1024.Idx → EReal) := by
  obtain ⟨-, -, -, -, -, -, -, -, -, -, e0, -, -, -, -, -, -⟩ := idx_facts t
  funext y
  unfold iblk0
  rw [View.read_apply]
  show (V c main_v19 : S1024.Idx → EReal) _ = (V c main_v19 : S1024.Idx → EReal) _
  congr 1
  funext a
  apply Fin.ext
  match a with
  | ⟨0, _⟩ => show win0_6.index t (0 : Fin 1) * 1024 + 1 * (y 0).val = (y 0).val; rw [e0]; omega

/-! ## The query array (window 7) -/

/-- Entry `y` of the block point `t` computes is the affine map at the array index under `y`. -/
theorem block7_at (c : Dev nD) (t : Fin cfg0.N) (y : S512x1024.Idx) :
    k0_pay2 (F := Ideal) (iblk0 V c 0 t) (iblk0 V c 1 t) (iblk0 V c 4 t) y
      = affine (V c main_v20) (V c main_v8) (V c main_v15) (((cfg0.win 7).blk t).view.emb y) := by
  obtain ⟨p, q, rfl⟩ : ∃ (p : Fin 512) (q : Fin 1024), y = ix2 p q := ⟨y 0, y 1, eq_ix2 y⟩
  have ht : t.val < 16 := by have h := t.isLt; have hN : cfg0.N = 16 := N_0; omega
  obtain ⟨-, -, -, -, -, -, -, -, -, -, -, e0, e1, -, -, -, -⟩ := idx_facts t
  have hemb : ((cfg0.win 7).blk t).view.emb (ix2 p q) = ix2 (⟨t.val * 512 + p.val, by omega⟩ : Fin 8192) q := by
    funext a
    apply Fin.ext
    match a with
    | ⟨0, _⟩ => show win0_7.index t (0 : Fin 2) * 512 + 1 * p.val = t.val * 512 + p.val; rw [e0]; omega
    | ⟨1, _⟩ => show win0_7.index t (1 : Fin 2) * 1024 + 1 * q.val = q.val; rw [e1]; omega
  rw [hemb, affine_apply]
  refine (pay2_apply (iblk0 V c 0 t) (iblk0 V c 1 t) (iblk0 V c 4 t) p q).trans ?_
  refine congrArg₂ (· + ·) (Finset.sum_congr rfl fun k _ => congrArg₂ (· * ·) ?_ ?_) ?_
  · exact iblk_x V c t p k _ rfl
  · exact congrFun (iblk_w1 V c t) (ix2 k q)
  · exact congrFun (iblk_b4 V c t) (ix1 q)

/-- What point `t` writes back is block `t` of the affine map of the arrays the region finds. -/
theorem block7 (c : Dev nD) (t : Fin cfg0.N) :
    (dat0 V c).flushed 7 t
      = ((cfg0.win 7).blk t).view.read (Elt Ideal) (affine (V c main_v20) (V c main_v8) (V c main_v15)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1024) hz1]
  funext j
  exact block7_at V c t j

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v21_0).slice (win0_7.rect t)).set ↔ _
  rw [View.set_slice_whole, Rect.mem_set_unit]
  exact Iff.rfl

/-- Row `r` lies in the block of point `r / 512`. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, -, -, e0, e1, -, -, -, -⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 1024 ≤ (i 1).val ∧ (i 1).val < win0_7.index t (1 : Fin 2) * 1024 + 1024; rw [e1]; omega

/-- The query array after the region. -/
theorem arr7 (c : Dev nD) :
    (dat0 V c).arrAt 7 cfg0.N = affine (V c main_v20) (V c main_v8) (V c main_v15) :=
  (dat0 V c).arrAt_eq_of_cover 7 (affine (V c main_v20) (V c main_v8) (V c main_v15)) (fun t _ => block7 V c t) cover7

/-! ## The key array (window 8) -/

/-- Entry `y` of the block point `t` computes is the affine map at the array index under `y`. -/
theorem block8_at (c : Dev nD) (t : Fin cfg0.N) (y : S512x1024.Idx) :
    k0_pay3 (F := Ideal) (iblk0 V c 0 t) (iblk0 V c 2 t) (iblk0 V c 5 t) y
      = affine (V c main_v20) (V c main_v10) (V c main_v17) (((cfg0.win 8).blk t).view.emb y) := by
  obtain ⟨p, q, rfl⟩ : ∃ (p : Fin 512) (q : Fin 1024), y = ix2 p q := ⟨y 0, y 1, eq_ix2 y⟩
  have ht : t.val < 16 := by have h := t.isLt; have hN : cfg0.N = 16 := N_0; omega
  obtain ⟨-, -, -, -, -, -, -, -, -, -, -, -, -, e0, e1, -, -⟩ := idx_facts t
  have hemb : ((cfg0.win 8).blk t).view.emb (ix2 p q) = ix2 (⟨t.val * 512 + p.val, by omega⟩ : Fin 8192) q := by
    funext a
    apply Fin.ext
    match a with
    | ⟨0, _⟩ => show win0_8.index t (0 : Fin 2) * 512 + 1 * p.val = t.val * 512 + p.val; rw [e0]; omega
    | ⟨1, _⟩ => show win0_8.index t (1 : Fin 2) * 1024 + 1 * q.val = q.val; rw [e1]; omega
  rw [hemb, affine_apply]
  refine (pay3_apply (iblk0 V c 0 t) (iblk0 V c 2 t) (iblk0 V c 5 t) p q).trans ?_
  refine congrArg₂ (· + ·) (Finset.sum_congr rfl fun k _ => congrArg₂ (· * ·) ?_ ?_) ?_
  · exact iblk_x V c t p k _ rfl
  · exact congrFun (iblk_w2 V c t) (ix2 k q)
  · exact congrFun (iblk_b5 V c t) (ix1 q)

/-- What point `t` writes back is block `t` of the affine map of the arrays the region finds. -/
theorem block8 (c : Dev nD) (t : Fin cfg0.N) :
    (dat0 V c).flushed 8 t
      = ((cfg0.win 8).blk t).view.read (Elt Ideal) (affine (V c main_v20) (V c main_v10) (V c main_v17)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1024) hz1]
  funext j
  exact block8_at V c t j

/-- An index of the array is in point `t`'s block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v21_1).slice (win0_8.rect t)).set ↔ _
  rw [View.set_slice_whole, Rect.mem_set_unit]
  exact Iff.rfl

/-- Row `r` lies in the block of point `r / 512`. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, e0, e1, -, -⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [e0, ht]; omega
  | ⟨1, _⟩ => show win0_8.index t (1 : Fin 2) * 1024 ≤ (i 1).val ∧ (i 1).val < win0_8.index t (1 : Fin 2) * 1024 + 1024; rw [e1]; omega

/-- The key array after the region. -/
theorem arr8 (c : Dev nD) :
    (dat0 V c).arrAt 8 cfg0.N = affine (V c main_v20) (V c main_v10) (V c main_v17) :=
  (dat0 V c).arrAt_eq_of_cover 8 (affine (V c main_v20) (V c main_v10) (V c main_v17)) (fun t _ => block8 V c t) cover8

/-! ## The value array (window 9) -/

/-- Entry `y` of the block point `t` computes is the affine map at the array index under `y`. -/
theorem block9_at (c : Dev nD) (t : Fin cfg0.N) (y : S512x1024.Idx) :
    k0_pay4 (F := Ideal) (iblk0 V c 0 t) (iblk0 V c 3 t) (iblk0 V c 6 t) y
      = affine (V c main_v20) (V c main_v12) (V c main_v19) (((cfg0.win 9).blk t).view.emb y) := by
  obtain ⟨p, q, rfl⟩ : ∃ (p : Fin 512) (q : Fin 1024), y = ix2 p q := ⟨y 0, y 1, eq_ix2 y⟩
  have ht : t.val < 16 := by have h := t.isLt; have hN : cfg0.N = 16 := N_0; omega
  obtain ⟨-, -, -, -, -, -, -, -, -, -, -, -, -, -, -, e0, e1⟩ := idx_facts t
  have hemb : ((cfg0.win 9).blk t).view.emb (ix2 p q) = ix2 (⟨t.val * 512 + p.val, by omega⟩ : Fin 8192) q := by
    funext a
    apply Fin.ext
    match a with
    | ⟨0, _⟩ => show win0_9.index t (0 : Fin 2) * 512 + 1 * p.val = t.val * 512 + p.val; rw [e0]; omega
    | ⟨1, _⟩ => show win0_9.index t (1 : Fin 2) * 1024 + 1 * q.val = q.val; rw [e1]; omega
  rw [hemb, affine_apply]
  refine (pay4_apply (iblk0 V c 0 t) (iblk0 V c 3 t) (iblk0 V c 6 t) p q).trans ?_
  refine congrArg₂ (· + ·) (Finset.sum_congr rfl fun k _ => congrArg₂ (· * ·) ?_ ?_) ?_
  · exact iblk_x V c t p k _ rfl
  · exact congrFun (iblk_w3 V c t) (ix2 k q)
  · exact congrFun (iblk_b6 V c t) (ix1 q)

/-- What point `t` writes back is block `t` of the affine map of the arrays the region finds. -/
theorem block9 (c : Dev nD) (t : Fin cfg0.N) :
    (dat0 V c).flushed 9 t
      = ((cfg0.win 9).blk t).view.read (Elt Ideal) (affine (V c main_v20) (V c main_v12) (V c main_v19)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1024) hz1]
  funext j
  exact block9_at V c t j

/-- An index of the array is in point `t`'s block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v21_2).slice (win0_9.rect t)).set ↔ _
  rw [View.set_slice_whole, Rect.mem_set_unit]
  exact Iff.rfl

/-- Row `r` lies in the block of point `r / 512`. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, e0, e1⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 1024 ≤ (i 1).val ∧ (i 1).val < win0_9.index t (1 : Fin 2) * 1024 + 1024; rw [e1]; omega

/-- The value array after the region. -/
theorem arr9 (c : Dev nD) :
    (dat0 V c).arrAt 9 cfg0.N = affine (V c main_v20) (V c main_v12) (V c main_v19) :=
  (dat0 V c).arrAt_eq_of_cover 9 (affine (V c main_v20) (V c main_v12) (V c main_v19)) (fun t _ => block9 V c t) cover9

end Cert.Stage

end
-- ==== Proof.StageEntry.lean ====
/-
  What the second kernel region finds in its query, key and value arrays.

  After the first region, its three results [8192, 1024] are viewed as [4, 2048, 1024] (row 2048·b + l is row (b, l)).
  Putting the pieces together: entry (b, l, n) of the query array is
  ∑ k, x (b, l, k) · W (192·(n / 64) + n % 64, k) + bias (192·(n / 64) + n % 64) — the projection's column that holds
  column n % 64 of head n / 64's query; the key and value arrays are the same 64 and 128 columns further on.
-/
import proofs.«156867_j13572096655417_2_alg».proof.Proof.Gen.KernelIdeal.Frame
import proofs.«156867_j13572096655417_2_alg».proof.Proof.Spec
import proofs.«156867_j13572096655417_2_alg».proof.Proof.StageHost0
import proofs.«156867_j13572096655417_2_alg».proof.Proof.StageRegion0
import Idealize.ShloMosaic.Lib.Pipeline.Value
import Idealize.ShloMosaic.Lib.StableHlo.Run
import Idealize.ShloMosaic.Lib.ValueIdx

set_option maxRecDepth 16384

noncomputable section

open scoped BigOperators

namespace Cert.Stage

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The first region's results as the memory holds them at its exit -/

theorem w2_q (c : Dev nD) : (W2 (F := Ideal) m ρ c (Proc.devRef .tc main_v21_0) : S8192x1024.Idx → EReal)
    = affine (V1 m ρ c main_v20) (V1 m ρ c main_v8) (V1 m ρ c main_v15) :=
  (W2_arr m ρ c 7).trans (arr7 (V1 m ρ) c)

theorem w2_k (c : Dev nD) : (W2 (F := Ideal) m ρ c (Proc.devRef .tc main_v21_1) : S8192x1024.Idx → EReal)
    = affine (V1 m ρ c main_v20) (V1 m ρ c main_v10) (V1 m ρ c main_v17) :=
  (W2_arr m ρ c 8).trans (arr8 (V1 m ρ) c)

theorem w2_v (c : Dev nD) : (W2 (F := Ideal) m ρ c (Proc.devRef .tc main_v21_2) : S8192x1024.Idx → EReal)
    = affine (V1 m ρ c main_v20) (V1 m ρ c main_v12) (V1 m ρ c main_v19) :=
  (W2_arr m ρ c 9).trans (arr9 (V1 m ρ) c)

/-! ## The second stretch of host operations -/

theorem v3_v22 (c : Dev nD) : (V3 (F := Ideal) m ρ c main_v22 : S4x2048x1024.Idx → EReal)
    = shapeCast S4x2048x1024 (W2 (F := Ideal) m ρ c (Proc.devRef .tc main_v21_0) : S8192x1024.Idx → EReal) shapeCasts_S8192x1024_S4x2048x1024 := by
  dsimp only [V3, W3, hostOps1]
  after_results
  rfl

theorem v3_v23 (c : Dev nD) : (V3 (F := Ideal) m ρ c main_v23 : S4x2048x1024.Idx → EReal)
    = shapeCast S4x2048x1024 (W2 (F := Ideal) m ρ c (Proc.devRef .tc main_v21_1) : S8192x1024.Idx → EReal) shapeCasts_S8192x1024_S4x2048x1024 := by
  dsimp only [V3, W3, hostOps1]
  after_results
  rfl

theorem v3_v24 (c : Dev nD) : (V3 (F := Ideal) m ρ c main_v24 : S4x2048x1024.Idx → EReal)
    = shapeCast S4x2048x1024 (W2 (F := Ideal) m ρ c (Proc.devRef .tc main_v21_2) : S8192x1024.Idx → EReal) shapeCasts_S8192x1024_S4x2048x1024 := by
  dsimp only [V3, W3, hostOps1]
  after_results
  rfl

/-- Entry `(b, l, n)` of a [8192, 1024] array viewed as [4, 2048, 1024] is its entry `(2048·b + l, n)`. -/
theorem unflat_apply (Y : S8192x1024.Idx → EReal) (b : Fin 4) (l : Fin 2048) (n : Fin 1024) (r : Fin 8192)
    (hr : r.val = 2048 * b.val + l.val) :
    shapeCast S4x2048x1024 Y shapeCasts_S8192x1024_S4x2048x1024 (ix3 b l n) = Y (ix2 r n) := by
  refine shapeCast_apply Y shapeCasts_S8192x1024_S4x2048x1024 _ (ix2 r n) ?_
  rw [Shape.rowMajor_val_three, Shape.rowMajor_val_two]
  show r.val * 1024 + n.val = (b.val * 2048 + l.val) * 1024 + n.val
  rw [hr]; omega

/-- The query array the second region finds. -/
theorem entry_q (c : Dev nD) :
    (V3 (F := Ideal) m ρ c main_v22 : S4x2048x1024.Idx → EReal)
      = Cert.Attn.qkvArr 0 (m ((c : Thread nD τ).loc main_arg0)) (m ((c : Thread nD τ).loc main_arg1)) (m ((c : Thread nD τ).loc main_arg2)) := by
  funext i
  obtain ⟨b, l, n, rfl⟩ : ∃ (b : Fin 4) (l : Fin 2048) (n : Fin 1024), i = ix3 b l n := ⟨i 0, i 1, i 2, eq_ix3 i⟩
  have hb := b.isLt
  have hl := l.isLt
  have hn := n.isLt
  rw [v3_v22, w2_q]
  refine (unflat_apply _ b l n (⟨2048 * b.val + l.val, by omega⟩ : Fin 8192) rfl).trans ?_
  rw [affine_apply, v1_v20, v1_v8, v1_v15]
  show _ = Cert.Attn.proj _ _ _ b l (Cert.Attn.colOf 0 n)
  unfold Cert.Attn.proj
  have he : (Cert.Attn.colOf 0 n).val = n.val / 64 * 192 + 0 + n.val % 64 := by
    show n.val / 64 * 192 + 0 * 64 + n.val % 64 = _
    omega
  refine congrArg₂ (· + ·) (Finset.sum_congr rfl fun k _ => congrArg₂ (· * ·) ?_ ?_) ?_
  · exact xFlat_apply _ _ k b l rfl
  · exact wT_apply 0 (by omega) _ rfl _ _ k n _ he
  · exact bS_apply 0 (by omega) _ rfl _ _ n _ he

/-- The key array the second region finds. -/
theorem entry_k (c : Dev nD) :
    (V3 (F := Ideal) m ρ c main_v23 : S4x2048x1024.Idx → EReal)
      = Cert.Attn.qkvArr 1 (m ((c : Thread nD τ).loc main_arg0)) (m ((c : Thread nD τ).loc main_arg1)) (m ((c : Thread nD τ).loc main_arg2)) := by
  funext i
  obtain ⟨b, l, n, rfl⟩ : ∃ (b : Fin 4) (l : Fin 2048) (n : Fin 1024), i = ix3 b l n := ⟨i 0, i 1, i 2, eq_ix3 i⟩
  have hb := b.isLt
  have hl := l.isLt
  have hn := n.isLt
  rw [v3_v23, w2_k]
  refine (unflat_apply _ b l n (⟨2048 * b.val + l.val, by omega⟩ : Fin 8192) rfl).trans ?_
  rw [affine_apply, v1_v20, v1_v10, v1_v17]
  show _ = Cert.Attn.proj _ _ _ b l (Cert.Attn.colOf 1 n)
  unfold Cert.Attn.proj
  have he : (Cert.Attn.colOf 1 n).val = n.val / 64 * 192 + 64 + n.val % 64 := by
    show n.val / 64 * 192 + 1 * 64 + n.val % 64 = _
    omega
  refine congrArg₂ (· + ·) (Finset.sum_congr rfl fun k _ => congrArg₂ (· * ·) ?_ ?_) ?_
  · exact xFlat_apply _ _ k b l rfl
  · exact wT_apply 64 (by omega) _ rfl _ _ k n _ he
  · exact bS_apply 64 (by omega) _ rfl _ _ n _ he

/-- The value array the second region finds. -/
theorem entry_v (c : Dev nD) :
    (V3 (F := Ideal) m ρ c main_v24 : S4x2048x1024.Idx → EReal)
      = Cert.Attn.qkvArr 2 (m ((c : Thread nD τ).loc main_arg0)) (m ((c : Thread nD τ).loc main_arg1)) (m ((c : Thread nD τ).loc main_arg2)) := by
  funext i
  obtain ⟨b, l, n, rfl⟩ : ∃ (b : Fin 4) (l : Fin 2048) (n : Fin 1024), i = ix3 b l n := ⟨i 0, i 1, i 2, eq_ix3 i⟩
  have hb := b.isLt
  have hl := l.isLt
  have hn := n.isLt
  rw [v3_v24, w2_v]
  refine (unflat_apply _ b l n (⟨2048 * b.val + l.val, by omega⟩ : Fin 8192) rfl).trans ?_
  rw [affine_apply, v1_v20, v1_v12, v1_v19]
  show _ = Cert.Attn.proj _ _ _ b l (Cert.Attn.colOf 2 n)
  unfold Cert.Attn.proj
  have he : (Cert.Attn.colOf 2 n).val = n.val / 64 * 192 + 128 + n.val % 64 := by
    show n.val / 64 * 192 + 2 * 64 + n.val % 64 = _
    omega
  refine congrArg₂ (· + ·) (Finset.sum_congr rfl fun k _ => congrArg₂ (· * ·) ?_ ?_) ?_
  · exact xFlat_apply _ _ k b l rfl
  · exact wT_apply 128 (by omega) _ rfl _ _ k n _ he
  · exact bS_apply 128 (by omega) _ rfl _ _ n _ he

end Cert.Stage

end
-- ==== Proof.StageWo.lean ====
/-
  What the second kernel region finds in its output-weight and output-bias arrays.

  Before the second region the output weight W_out [1024, 1024] is transposed and its entries are
  converted to a narrower float format, which is the identity on extended reals: entry (j, o) of the
  array the region reads is W_out (o, j).  The output bias is read as it was passed: no operation
  before the region and no write-back of either region touches it.
-/
import proofs.«156867_j13572096655417_2_alg».proof.Proof.Gen.KernelIdeal.Frame
import proofs.«156867_j13572096655417_2_alg».proof.Proof.Spec
import Idealize.ShloMosaic.Lib.StableHlo.Run
import Idealize.ShloMosaic.Lib.ValueLayout
import Idealize.ShloMosaic.Lib.Pipeline.Value

set_option maxRecDepth 16384

noncomputable section

namespace Cert.Stage

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- Neither the first stretch of host operations nor the first region writes the output weight: after the
    first region its buffer still holds what was passed. -/
theorem w2_arg3 (c : Dev nD) :
    W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The output-weight array the second region finds: entry (j, o) is W_out (o, j).  The second stretch of host
    operations transposes the passed array and converts its entries, and the conversion is the identity on
    extended reals. -/
theorem entry_wo (c : Dev nD) :
    (V3 (F := Ideal) m ρ c main_v26 : S1024x1024.Idx → EReal) = Cert.Attn.woT (m ((c : Thread nD τ).loc main_arg3)) := by
  dsimp only [V3, W3, hostOps1]
  after_results
  rw [w2_arg3]
  funext i
  obtain ⟨j, o, rfl⟩ : ∃ (j o : Fin 1024), i = ix2 j o := ⟨i 0, i 1, eq_ix2 i⟩
  exact transpose_ix2_apply _ transposes_S1024x1024_S1024x1024_1_0 j o

/-- The output-bias array the second region finds is the one passed. -/
theorem entry_bo (c : Dev nD) :
    (V3 (F := Ideal) m ρ c main_arg4 : S1024.Idx → EReal) = m ((c : Thread nD τ).loc main_arg4) :=
  calc W3 (F := Ideal) m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.Stage

end
-- ==== Proof.RefConsts.lean ====
/-
  The two float constants of the score scale, as the extended reals their binary32 words denote.

  The reference divides every score by the square root of 64.0 (the word 0x42800000); the
  specification multiplies by 1/8 (the word 0x3E000000).  The word of 64.0 denotes the real 64,
  whose square root is 8; the word of 0.125 denotes the real 1/8; and division of any extended
  real by the nonzero real 8 is multiplication by 1/8, at the infinities too.
-/
import Idealize.ShloMosaic.PureOps.Ideal
import Idealize.ShloMosaic.PureOps.Ideal.Laws

noncomputable section

namespace Cert.RefSpec

open Idealize.ShloMosaic

/-- The word 0x42800000 denotes the real 64. -/
theorem ofBits_sixtyfour : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_sixtyfour : Ideal.sqrt (Ideal.ofBits .f32 0x42800000#32) = ((8 : ℝ) : EReal) := by
  rw [ofBits_sixtyfour, Ideal.sqrt_coe, if_neg (by norm_num)]
  have h : Real.sqrt 64 = 8 := by
    rw [show (64 : ℝ) = 8 ^ 2 by norm_num]
    exact Real.sqrt_sq (by norm_num)
  rw [h]

/-- Dividing by the square root of the word of 64.0 is multiplying by the word of 0.125, for every
    extended real. -/
theorem div_sqrt_sixtyfour (x : EReal) :
    Ideal.div x (Ideal.sqrt (Ideal.ofBits .f32 0x42800000#32)) = x * Ideal.ofBits .f32 0x3E000000#32 := by
  rw [sqrt_sixtyfour, ofBits_eighth]
  exact Ideal.div_coe (by norm_num) x

end Cert.RefSpec

end
-- ==== Proof.RefSums.lean ====
/-
  Two facts about sums and maxima over finite index sets on the extended reals.

  A sum over the 1024 head-major columns is the sum over the 16 heads of the sums over each head's
  64 columns, written as sixteen terms added to zero one after the other: column 64·h + d is the
  pair (h, d), and addition of extended reals is commutative and associative.

  A fold of `max` is at least its start value, so taking the maximum with that value again changes
  nothing.
-/
import proofs.«156867_j13572096655417_2_alg».proof.Proof.Spec
import Mathlib.Algebra.BigOperators.Fin
import Mathlib.Logic.Equiv.Fin.Basic

noncomputable section

open scoped BigOperators

namespace Cert.RefSpec

open Idealize.ShloMosaic Cert.Attn

/-- Sixteen terms added to zero one after the other are their sum. -/
theorem sum_fin16_eq_nest16 (T : Fin 16 → EReal) : ∑ h : Fin 16, T h = nest16 T := by
  unfold nest16
  simp only [Fin.sum_univ_castSucc, Fin.sum_univ_zero]
  rfl

/-- The pair (h, d) is column 64·h + d. -/
theorem finProd_eq_hd (h : Fin 16) (d : Fin 64) : (finProdFinEquiv (h, d) : Fin (16 * 64)) = hd h d := by
  apply Fin.ext
  show d.val + 64 * h.val = h.val * 64 + d.val
  omega

/-- A sum over the 1024 columns, regrouped head by head. -/
theorem sum_cols_eq_nest16 (f : Fin 1024 → EReal) :
    ∑ j : Fin 1024, f j = nest16 (fun h => ∑ d : Fin 64, f (hd h d)) := by
  rw [← sum_fin16_eq_nest16]
  have e : ∑ j : Fin 1024, f j = ∑ p : Fin 16 × Fin 64, f (finProdFinEquiv p) :=
    (Equiv.sum_comp (finProdFinEquiv : Fin 16 × Fin 64 ≃ Fin (16 * 64)) f).symm
  rw [e, Fintype.sum_prod_type]
  refine Finset.sum_congr rfl fun h _ => Finset.sum_congr rfl fun d _ => ?_
  exact congrArg f (finProd_eq_hd h d)

/-- The maximum of a fold of `max` with the fold's own start value is the fold. -/
theorem max_start_fold {ι : Type} (s : Finset ι) (b : EReal) (g : ι → EReal) :
    max b (s.fold max b g) = s.fold max b g :=
  max_eq_right ((Finset.le_fold_max b).2 (Or.inl le_rfl))

end Cert.RefSpec

end
-- ==== Proof.RefProj.lean ====
/-
  The reference's query, key and value arrays, read at coordinates.

  The reference forms x · Wᵀ + bias as one [4, 2048, 3072] array, reshapes it to
  [4, 2048, 16, 192], swaps the two middle axes and cuts the last axis into three pieces of 64.
  Entry (b, h, l, c) of the swapped array is entry (b, l, 192·h + c) of the projection: the flat
  position ((b·2048 + l)·16 + h)·192 + c is (b·2048 + l)·3072 + (192·h + c).  With c = 64·p + d
  that column is `colOf p (hd h d)`, because (64·h + d) / 64 = h and (64·h + d) % 64 = d.
-/
import proofs.«156867_j13572096655417_2_alg».proof.Proof.Spec
import proofs.«156867_j13572096655417_2_alg».proof.Proof.Gen.ReferenceIdeal.Read

noncomputable section

open scoped BigOperators

namespace Cert.RefSpec

open Cert.ReferenceIdeal Cert.ReferenceIdeal.Gen Cert.ReferenceIdeal.Read Idealize.ShloMosaic Idealize.ShloMosaic.ValueIdx Cert.Attn

/-- Column 192·h + 64·p + d of the projection is where part `p` keeps column 64·h + d. -/
theorem colOf_hd (p : Fin 3) (h : Fin 16) (d : Fin 64) :
    (colOf p (hd h d)).val = h.val * 192 + (p.val * 64 + d.val) := by
  have hh := h.isLt; have hd' := d.isLt
  show (h.val * 64 + d.val) / 64 * 192 + p.val * 64 + (h.val * 64 + d.val) % 64 = _
  omega

/-- The affine map at (b, l, e): the contraction over the 1024 input columns plus the bias. -/
theorem v3_at (x0 : Arr Sx) (x1 : Arr Sw) (x2 : Arr Sb) (b : Fin 4) (l : Fin 2048) (e : Fin 3072) :
    val_main_v3 (F := Ideal) x0 x1 x2 (ix3 b l e) = proj x0 x1 x2 b l e := by
  rw [val_main_v3_apply, val_main_v0_apply, val_main_v2_apply, val_main_v1_apply]
  have e0 : ∀ k : Fin 1024, lidx_main_v0 (ix3 b l e) k = ix3 b l k := fun k => funext fun a => by
    match a with
    | ⟨0, _⟩ => rfl
    | ⟨1, _⟩ => rfl
    | ⟨2, _⟩ => rfl
  have e1 : ∀ k : Fin 1024, ridx_main_v0 (ix3 b l e) k = ix2 e k := fun k => funext fun a => by
    match a with
    | ⟨0, _⟩ => rfl
    | ⟨1, _⟩ => rfl
  have e2 : idx_main_v1 (idx_main_v2 (ix3 b l e)) = ix1 e := funext fun a => by
    match a with
    | ⟨0, _⟩ => rfl
  simp only [e0, e1, e2]
  rfl

/-- Entry (b, h, l, c) of the reshaped and swapped array sits at (b, l, 192·h + c) of the projection. -/
theorem idx_v4_v5 (b : Fin 4) (h : Fin 16) (l : Fin 2048) (c : Fin 192) (e : Fin 3072)
    (he : e.val = h.val * 192 + c.val) :
    idx_main_v4 (idx_main_v5 (ix4 b h l c)) = ix3 b l e := by
  have hb := b.isLt; have hh := h.isLt; have hl := l.isLt; have hc := c.isLt
  funext a
  apply Fin.ext
  match a with
  | ⟨0, _⟩ =>
    show (((b.val * 2048 + l.val) * 16 + h.val) * 192 + c.val) / 6291456 = b.val
    omega
  | ⟨1, _⟩ =>
    show (((b.val * 2048 + l.val) * 16 + h.val) * 192 + c.val) / 3072 % 2048 = l.val
    omega
  | ⟨2, _⟩ =>
    show (((b.val * 2048 + l.val) * 16 + h.val) * 192 + c.val) % 3072 = e.val
    omega

/-- Entry (b, h, l, c) of the swapped [4, 16, 2048, 192] array. -/
theorem v5_at (x0 : Arr Sx) (x1 : Arr Sw) (x2 : Arr Sb) (b : Fin 4) (h : Fin 16) (l : Fin 2048) (c : Fin 192)
    (e : Fin 3072) (he : e.val = h.val * 192 + c.val) :
    val_main_v5 (F := Ideal) x0 x1 x2 (ix4 b h l c) = proj x0 x1 x2 b l e := by
  rw [val_main_v5_apply, val_main_v4_apply, idx_v4_v5 b h l c e he, v3_at]

/-- The query piece: column d of head h at row l of batch b. -/
theorem v6_at (x0 : Arr Sx) (x1 : Arr Sw) (x2 : Arr Sb) (b : Fin 4) (h : Fin 16) (l : Fin 2048) (d : Fin 64) :
    val_main_v6 (F := Ideal) x0 x1 x2 (ix4 b h l d) = qkvArr 0 x0 x1 x2 (ix3 b l (hd h d)) := by
  have hd' := d.isLt
  have e : idx_main_v6 (ix4 b h l d) = ix4 b h l (⟨d.val, by omega⟩ : Fin 192) := funext fun a => by
    match a with
    | ⟨0, _⟩ => rfl
    | ⟨1, _⟩ => rfl
    | ⟨2, _⟩ => rfl
    | ⟨3, _⟩ => rfl
  rw [val_main_v6_apply, e, v5_at x0 x1 x2 b h l _ (colOf 0 (hd h d)) (by rw [colOf_hd]; show _ = h.val * 192 + d.val; simp)]
  rfl

/-- The key piece. -/
theorem v7_at (x0 : Arr Sx) (x1 : Arr Sw) (x2 : Arr Sb) (b : Fin 4) (h : Fin 16) (l : Fin 2048) (d : Fin 64) :
    val_main_v7 (F := Ideal) x0 x1 x2 (ix4 b h l d) = qkvArr 1 x0 x1 x2 (ix3 b l (hd h d)) := by
  have hd' := d.isLt
  have e : idx_main_v7 (ix4 b h l d) = ix4 b h l (⟨64 + d.val, by omega⟩ : Fin 192) := funext fun a => by
    match a with
    | ⟨0, _⟩ => rfl
    | ⟨1, _⟩ => rfl
    | ⟨2, _⟩ => rfl
    | ⟨3, _⟩ => rfl
  rw [val_main_v7_apply, e, v5_at x0 x1 x2 b h l _ (colOf 1 (hd h d)) (by rw [colOf_hd]; show _ = h.val * 192 + (64 + d.val); simp)]
  rfl

/-- The value piece. -/
theorem v8_at (x0 : Arr Sx) (x1 : Arr Sw) (x2 : Arr Sb) (b : Fin 4) (h : Fin 16) (l : Fin 2048) (d : Fin 64) :
    val_main_v8 (F := Ideal) x0 x1 x2 (ix4 b h l d) = qkvArr 2 x0 x1 x2 (ix3 b l (hd h d)) := by
  have hd' := d.isLt
  have e : idx_main_v8 (ix4 b h l d) = ix4 b h l (⟨128 + d.val, by omega⟩ : Fin 192) := funext fun a => by
    match a with
    | ⟨0, _⟩ => rfl
    | ⟨1, _⟩ => rfl
    | ⟨2, _⟩ => rfl
    | ⟨3, _⟩ => rfl
  rw [val_main_v8_apply, e, v5_at x0 x1 x2 b h l _ (colOf 2 (hd h d)) (by rw [colOf_hd]; show _ = h.val * 192 + (128 + d.val); simp)]
  rfl

end Cert.RefSpec

end
-- ==== Proof.RefScores.lean ====
/-
  The reference's scores, row maxima, exponentials, row sums and attention weights at coordinates.

  For batch b, head h and query row l the reference's score against key row j is the dot product of
  the query piece at (b, h, l, ·) with the key piece at (b, h, j, ·), divided by the square root of
  64.0, which is the product with 1/8.  The row maximum is the fold of `max` over the 2048 scores from
  the word of -∞; the further maximum with that same word changes nothing.  The row sum starts from
  the word of +0.0, which is 0.
-/
import proofs.«156867_j13572096655417_2_alg».proof.Proof.RefConsts
import proofs.«156867_j13572096655417_2_alg».proof.Proof.RefSums
import proofs.«156867_j13572096655417_2_alg».proof.Proof.RefProj

noncomputable section

open scoped BigOperators

namespace Cert.RefSpec

open Cert.ReferenceIdeal Cert.ReferenceIdeal.Gen Cert.ReferenceIdeal.Read Idealize.ShloMosaic Idealize.ShloMosaic.ValueIdx Cert.Attn

/-- The 2048 scores of query row l of head h of batch b. -/
def scoreRow (x0 : Arr Sx) (x1 : Arr Sw) (x2 : Arr Sb) (b : Fin 4) (h : Fin 16) (l : Fin 2048) : Fin 2048 → EReal :=
  fun j => score (fun d => qkvArr 0 x0 x1 x2 (ix3 b l (hd h d))) (fun d => qkvArr 1 x0 x1 x2 (ix3 b j (hd h d)))

section
variable (x0 : Arr Sx) (x1 : Arr Sw) (x2 : Arr Sb)

/-- The scaled score at (b, h, l, j). -/
theorem v12_at (b : Fin 4) (h : Fin 16) (l j : Fin 2048) :
    val_main_v12 (F := Ideal) x0 x1 x2 (ix4 b h l j) = scoreRow x0 x1 x2 b h l j := by
  rw [val_main_v12_apply, val_main_v9_apply, val_main_v11_apply, val_main_v10_apply, val_main_cst_apply]
  have e0 : ∀ k : Fin 64, lidx_main_v9 (ix4 b h l j) k = ix4 b h l k := fun k => funext fun a => by
    match a with
    | ⟨0, _⟩ => rfl
    | ⟨1, _⟩ => rfl
    | ⟨2, _⟩ => rfl
    | ⟨3, _⟩ => rfl
  have e1 : ∀ k : Fin 64, ridx_main_v9 (ix4 b h l j) k = ix4 b h j k := fun k => funext fun a => by
    match a with
    | ⟨0, _⟩ => rfl
    | ⟨1, _⟩ => rfl
    | ⟨2, _⟩ => rfl
    | ⟨3, _⟩ => rfl
  simp only [e0, e1, v6_at, v7_at]
  exact div_sqrt_sixtyfour _

/-- Result index (b, h, l) with key row k put back on the reduced axis is (b, h, l, k). -/
theorem lift_row (hr : S4x16x2048x2048.Reduces [3] S4x16x2048) (b : Fin 4) (h : Fin 16) (l : Fin 2048)
    (k : Fin (S4x16x2048x2048.size 3)) :
    hr.lift (ix3 b h l) k = ix4 b h l (⟨k.val, k.isLt⟩ : Fin 2048) := by
  funext c
  apply Fin.ext
  match c with
  | ⟨0, _⟩ => rfl
  | ⟨1, _⟩ => rfl
  | ⟨2, _⟩ => rfl
  | ⟨3, _⟩ => rfl

/-- The reduce with a maximum body over the key axis is the row maximum. -/
theorem v13_at (b : Fin 4) (h : Fin 16) (l : Fin 2048) :
    val_main_v13 (F := Ideal) x0 x1 x2 (ix3 b h l) = rowMax (scoreRow x0 x1 x2 b h l) := by
  have hr : S4x16x2048x2048.Reduces [3] S4x16x2048 := by decide
  unfold val_main_v13
  rw [Host.reduce_eq_fold_single FloatOps.maximumf _ _ reducesTo_S4x16x2048x2048_S4x16x2048_d3 hr h_S_]
  have hf : (val_main_v12 (F := Ideal) x0 x1 x2 ∘ hr.lift (ix3 b h l)) = scoreRow x0 x1 x2 b h l := funext fun k => by
    show val_main_v12 (F := Ideal) x0 x1 x2 (hr.lift (ix3 b h l) k) = _
    rw [lift_row, v12_at]
    rfl
  rw [hf]
  rfl

/-- The maximum with the start word again is still the row maximum. -/
theorem v15_at (b : Fin 4) (h : Fin 16) (l : Fin 2048) :
    val_main_v15 (F := Ideal) x0 x1 x2 (ix3 b h l) = rowMax (scoreRow x0 x1 x2 b h l) := by
  rw [val_main_v15_apply, val_main_v14_apply, val_main_cst_1_apply, v13_at]
  unfold rowMax
  exact max_start_fold _ _ _

/-- The shifted and exponentiated score at (b, h, l, j). -/
theorem v19_at (b : Fin 4) (h : Fin 16) (l j : Fin 2048) :
    val_main_v19 (F := Ideal) x0 x1 x2 (ix4 b h l j) = expRow (scoreRow x0 x1 x2 b h l) j := by
  have e : idx_main_v16 (idx_main_v17 (ix4 b h l j)) = ix3 b h l := funext fun a => by
    match a with
    | ⟨0, _⟩ => rfl
    | ⟨1, _⟩ => rfl
    | ⟨2, _⟩ => rfl
  rw [val_main_v19_apply, val_main_v18_apply, val_main_v17_apply, val_main_v16_apply, e, v15_at, v12_at]
  rfl

/-- The row sum of the exponentials. -/
theorem v20_at (b : Fin 4) (h : Fin 16) (l : Fin 2048) :
    val_main_v20 (F := Ideal) x0 x1 x2 (ix3 b h l) = ∑ k : Fin 2048, expRow (scoreRow x0 x1 x2 b h l) k := by
  rw [val_main_v20_apply, val_main_cst_2_apply]
  have e : ∀ k : Fin 2048, idx_main_v20 (ix3 b h l) k = ix4 b h l k := fun k => funext fun a => by
    match a with
    | ⟨0, _⟩ => rfl
    | ⟨1, _⟩ => rfl
    | ⟨2, _⟩ => rfl
    | ⟨3, _⟩ => rfl
  simp only [e, v19_at]
  show Ideal.ofBits .f32 0x00000000#32 + _ = _
  rw [Ideal.ofBits_zero_f32, zero_add]

/-- The attention weight at (b, h, l, j). -/
theorem v23_at (b : Fin 4) (h : Fin 16) (l j : Fin 2048) :
    val_main_v23 (F := Ideal) x0 x1 x2 (ix4 b h l j) = prob (scoreRow x0 x1 x2 b h l) j := by
  have e : idx_main_v21 (idx_main_v22 (ix4 b h l j)) = ix3 b h l := funext fun a => by
    match a with
    | ⟨0, _⟩ => rfl
    | ⟨1, _⟩ => rfl
    | ⟨2, _⟩ => rfl
  rw [val_main_v23_apply, val_main_v22_apply, val_main_v21_apply, e, v20_at, v19_at]
  rfl

end

end Cert.RefSpec

end
-- ==== Proof.RefSpec.lean ====
/-
  The reference program computes the specification.

  The weights of a query row average the value rows: column d of head h.  The reference puts the 16
  heads' results back side by side, (b, l, 64·h + d) holding head h's column d, and contracts the
  1024 columns against row o of the output weight.  That sum over 1024 columns is the sum over the
  16 heads of the sums over each head's 64 columns, which is how the specification writes it; the
  output bias is added last on both sides.
-/
import proofs.«156867_j13572096655417_2_alg».proof.Proof.RefScores

noncomputable section

open scoped BigOperators

namespace Cert.RefSpec

open Cert.ReferenceIdeal Cert.ReferenceIdeal.Gen Cert.ReferenceIdeal.Read Idealize.ShloMosaic Idealize.ShloMosaic.ValueIdx Cert.Attn

section
variable (x0 : Arr Sx) (x1 : Arr Sw) (x2 : Arr Sb)

/-- Column d of the weighted average of the value rows, for query row l of head h of batch b. -/
theorem v24_at (b : Fin 4) (h : Fin 16) (l : Fin 2048) (d : Fin 64) :
    val_main_v24 (F := Ideal) x0 x1 x2 (ix4 b h l d)
      = attend (fun d' => qkvArr 0 x0 x1 x2 (ix3 b l (hd h d'))) (fun j d' => qkvArr 1 x0 x1 x2 (ix3 b j (hd h d')))
          (fun j d' => qkvArr 2 x0 x1 x2 (ix3 b j (hd h d'))) d := by
  rw [val_main_v24_apply]
  have e0 : ∀ k : Fin 2048, lidx_main_v24 (ix4 b h l d) k = ix4 b h l k := fun k => funext fun a => by
    match a with
    | ⟨0, _⟩ => rfl
    | ⟨1, _⟩ => rfl
    | ⟨2, _⟩ => rfl
    | ⟨3, _⟩ => rfl
  have e1 : ∀ k : Fin 2048, ridx_main_v24 (ix4 b h l d) k = ix4 b h k d := fun k => funext fun a => by
    match a with
    | ⟨0, _⟩ => rfl
    | ⟨1, _⟩ => rfl
    | ⟨2, _⟩ => rfl
    | ⟨3, _⟩ => rfl
  simp only [e0, e1, v23_at, v8_at]
  rfl

/-- Column 64·h + d of the heads laid side by side is head h's column d. -/
theorem v26_at (b : Fin 4) (l : Fin 2048) (h : Fin 16) (d : Fin 64) :
    val_main_v26 (F := Ideal) x0 x1 x2 (ix3 b l (hd h d)) = val_main_v24 (F := Ideal) x0 x1 x2 (ix4 b h l d) := by
  have hb := b.isLt; have hh := h.isLt; have hl := l.isLt; have hd' := d.isLt
  have e : idx_main_v25 (idx_main_v26 (ix3 b l (hd h d))) = ix4 b h l d := by
    funext a
    apply Fin.ext
    match a with
    | ⟨0, _⟩ =>
      show ((b.val * 2048 + l.val) * 1024 + (h.val * 64 + d.val)) / 2097152 = b.val
      omega
    | ⟨1, _⟩ =>
      show ((b.val * 2048 + l.val) * 1024 + (h.val * 64 + d.val)) / 64 % 16 = h.val
      omega
    | ⟨2, _⟩ =>
      show ((b.val * 2048 + l.val) * 1024 + (h.val * 64 + d.val)) / 1024 % 2048 = l.val
      omega
    | ⟨3, _⟩ =>
      show ((b.val * 2048 + l.val) * 1024 + (h.val * 64 + d.val)) % 64 = d.val
      omega
  rw [val_main_v26_apply, val_main_v25_apply, e]

/-- The reference's result at (b, l, o) is the specification's. -/
theorem v30_at (x3 : Arr Swo) (x4 : Arr Sbo) (b : Fin 4) (l : Fin 2048) (o : Fin 1024) :
    val_main_v30 (F := Ideal) x0 x1 x2 x3 x4 (ix3 b l o) = specOut x0 x1 x2 x3 x4 (ix3 b l o) := by
  rw [val_main_v30_apply, val_main_v27_apply, val_main_v29_apply, val_main_v28_apply]
  have e0 : ∀ k : Fin 1024, lidx_main_v27 (ix3 b l o) k = ix3 b l k := fun k => funext fun a => by
    match a with
    | ⟨0, _⟩ => rfl
    | ⟨1, _⟩ => rfl
    | ⟨2, _⟩ => rfl
  have e1 : ∀ k : Fin 1024, ridx_main_v27 (ix3 b l o) k = ix2 o k := fun k => funext fun a => by
    match a with
    | ⟨0, _⟩ => rfl
    | ⟨1, _⟩ => rfl
  have e2 : idx_main_v28 (idx_main_v29 (ix3 b l o)) = ix1 o := funext fun a => by
    match a with
    | ⟨0, _⟩ => rfl
  simp only [e0, e1, e2]
  rw [sum_cols_eq_nest16]
  simp only [v26_at, v24_at]
  rfl

end

/-- The reference program's result is the specification, as one array. -/
theorem ref_eq_spec (x0 : Arr Sx) (x1 : Arr Sw) (x2 : Arr Sb) (x3 : Arr Swo) (x4 : Arr Sbo) :
    val_main_v30 (F := Ideal) x0 x1 x2 x3 x4 = specOut x0 x1 x2 x3 x4 := by
  funext i
  obtain ⟨b, l, o, rfl⟩ : ∃ (b : Fin 4) (l : Fin 2048) (o : Fin 1024), i = ix3 b l o := ⟨i 0, i 1, i 2, eq_ix3 i⟩
  exact v30_at x0 x1 x2 x3 x4 b l o

end Cert.RefSpec

end
-- ==== Proof.lean ====
/-
  Multi-head self-attention as two kernels against its plain array form: the two idealized programs compute one
  function on the extended reals.

  The kernel program projects x : [4, 2048, 1024] through three re-ordered slices of the fused weight (query, key
  and value, head-major) in a first region, and in a second region, per batch and per block of 256 query rows,
  runs the 16 heads one after the other — scores against all 2048 keys scaled by 1/8, the row maximum subtracted,
  exponentials, division by the row sum, the weighted average of the value rows — adding each head's product with
  its 64 rows of the transposed output weight to an accumulator, and the output bias last.  The reference projects
  once into 3072 columns, regroups them by head, divides the scores by √64, applies the same row normalisation,
  and contracts the 1024 regrouped columns against the output weight in one product.

  Both are `Cert.Attn.specOut` of the five arguments (Proof/Spec.lean).  On the kernel side: the run names the
  result buffer as the second region's output array (Proof/KRun.lean); that array is `attnOut` of the five arrays
  the region is entered with (Proof/AttnRegion.lean, over the body read at an entry in Proof/AttnBlock.lean and
  Proof/AttnHeadVal.lean); those five arrays are the head-major projections, the transposed output weight and the
  bias (Proof/StageEntry.lean, Proof/StageWo.lean, over the first region in Proof/StageRegion0.lean).  On the
  reference side the host operations are read one at a time (Proof/RefSpec.lean): x / √64 = x · 1/8 on every
  extended real, and a sum over 1024 columns is the sixteen sums over 64 columns added in order.  No step uses
  that the inputs are finite: sums are only regrouped, never distributed over.

  The three frames are the generated ones (the reference's is its generated run with the result dropped), and the
  idealization rewrote no operation, so it has nothing to preserve.
-/
import proofs.«156867_j13572096655417_2_alg».proof.Defs
import proofs.«156867_j13572096655417_2_alg».proof.Proof.Gen.Kernel
import proofs.«156867_j13572096655417_2_alg».proof.Proof.Gen.Kernel.Skeleton
import proofs.«156867_j13572096655417_2_alg».proof.Proof.Gen.Kernel.Launch
import proofs.«156867_j13572096655417_2_alg».proof.Proof.Gen.Kernel.Points
import proofs.«156867_j13572096655417_2_alg».proof.Proof.Gen.Kernel.Frame
import proofs.«156867_j13572096655417_2_alg».proof.Proof.Gen.KernelIdeal
import proofs.«156867_j13572096655417_2_alg».proof.Proof.Gen.KernelIdeal.Skeleton
import proofs.«156867_j13572096655417_2_alg».proof.Proof.Gen.KernelIdeal.Launch
import proofs.«156867_j13572096655417_2_alg».proof.Proof.Gen.KernelIdeal.Points
import proofs.«156867_j13572096655417_2_alg».proof.Proof.Gen.KernelIdeal.Frame
import proofs.«156867_j13572096655417_2_alg».proof.Proof.Gen.ReferenceIdeal
import proofs.«156867_j13572096655417_2_alg».proof.Proof.Gen.Pre_finite_inputs
import proofs.«156867_j13572096655417_2_alg».proof.Proof.Gen.ReferenceIdeal.Run
import proofs.«156867_j13572096655417_2_alg».proof.Proof.Gen.ReferenceIdeal.Read
import proofs.«156867_j13572096655417_2_alg».proof.Proof.KRun
import proofs.«156867_j13572096655417_2_alg».proof.Proof.AttnRegion
import proofs.«156867_j13572096655417_2_alg».proof.Proof.StageEntry
import proofs.«156867_j13572096655417_2_alg».proof.Proof.StageWo
import proofs.«156867_j13572096655417_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The specification at the kernel program's five argument arrays on device `c`. -/
abbrev specAt (m : (ℓ : Loc Cert.KernelIdeal.nD Cert.KernelIdeal.τ Cert.KernelIdeal.sig) → Buf (Elt Ideal) ℓ)
    (c : Dev Cert.KernelIdeal.nD) : Cert.Attn.Arr Cert.Attn.Sx :=
  Cert.Attn.specOut
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- The second region's output array is the specification of the launch arguments: the region computes `attnOut`
    of the arrays it is entered with, and those are the three head-major projections, the transposed output weight
    and the output bias. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V3 (F := Ideal) m ρ) c).arrAt 5 Cert.KernelIdeal.cfg1.N = specAt m c := by
  refine (Cert.AttnRegion.final (Cert.KernelIdeal.Gen.V3 (F := Ideal) m ρ) c).trans ?_
  unfold specAt Cert.Attn.specOut
  rw [← Cert.Stage.entry_q m ρ c, ← Cert.Stage.entry_k m ρ c, ← Cert.Stage.entry_v m ρ c, ← Cert.Stage.entry_wo m ρ c,
    ← Cert.Stage.entry_bo m ρ c]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with the specification of those arguments in
    their result buffers, and with the arguments as launched. -/
theorem algebraic : Cert.algebraic_KernelIdeal_ReferenceIdeal := by
  intro m ρ m' ρ' _ hagree
  refine ⟨fun c => specAt m c, ?_, ?_⟩
  · exact (θ_run Cert.KernelIdeal.defs _ _).mono (fun _ h c => ⟨(h c).1.trans (kernel_result m ρ c), (h c).2⟩)
      (Cert.KRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2.1,
      (hagree c).2.2.2.2]
    exact Cert.RefSpec.ref_eq_spec _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
